-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v51)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v51) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v78) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S200x128 : Shape := ⟨2, ![200, 128]⟩
abbrev S50000x1 : Shape := ⟨2, ![50000, 1]⟩
abbrev S2x128x128 : Shape := ⟨3, ![2, 128, 128]⟩
abbrev S500000 : Shape := ⟨1, ![500000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S200x128 : S_.BroadcastsInDim S200x128 (![] : Fin 0 → Fin S200x128.rank)
  reducesTo_S200x128_S_d0_1 : S200x128.ReducesTo [0, 1] S_
  bcast_S_S50000x1 : S_.BroadcastsInDim S50000x1 (![] : Fin 0 → Fin S50000x1.rank)
  reducesTo_S50000x1_S_d0_1 : S50000x1.ReducesTo [0, 1] S_
  bcast_S_S2x128x128 : S_.BroadcastsInDim S2x128x128 (![] : Fin 0 → Fin S2x128x128.rank)
  reducesTo_S2x128x128_S_d0_1_2 : S2x128x128.ReducesTo [0, 1, 2] S_

variable [Facts]

def fn_part1 {F : FTy → Type} [FloatOps F] (main_arg4 : FVec F S2x128x128 .f32) (main_arg5 : FVec F S2x128x128 .f32) (main_v13 : IVec S_ 1) (main_v16 : IVec S2x128x128 1) : IVec S_ 1 :=
  let main_c_5 : IVec S_ 1 := constantI S_ 1 1#1
  let main_v17 : IVec S_ 1 := (fun x v => Host.reduce IntOp.andi x v reducesTo_S2x128x128_S_d0_1_2 h_S_) main_v16 main_c_5
  let main_v18 : IVec S_ 1 := andi main_v13 main_v17
  let main_v19 : FVec F S2x128x128 .f32 := Host.absf main_arg4
  let main_cst_6 : FVec F S_ .f32 := constant S_ .f32 0x7F800000#32
  let main_v20 : FVec F S2x128x128 .f32 := broadcastInDim S2x128x128 ![] bcast_S_S2x128x128 main_cst_6
  let main_v21 : IVec S2x128x128 1 := cmpf .olt main_v19 main_v20
  let main_c_7 : IVec S_ 1 := constantI S_ 1 1#1
  let main_v22 : IVec S_ 1 := (fun x v => Host.reduce IntOp.andi x v reducesTo_S2x128x128_S_d0_1_2 h_S_) main_v21 main_c_7
  let main_v23 : IVec S_ 1 := andi main_v18 main_v22
  let main_v24 : FVec F S2x128x128 .f32 := Host.absf main_arg5
  let main_cst_8 : FVec F S_ .f32 := constant S_ .f32 0x7F800000#32
  let main_v25 : FVec F S2x128x128 .f32 := broadcastInDim S2x128x128 ![] bcast_S_S2x128x128 main_cst_8
  let main_v26 : IVec S2x128x128 1 := cmpf .olt main_v24 main_v25
  let main_c_9 : IVec S_ 1 := constantI S_ 1 1#1
  let main_v27 : IVec S_ 1 := (fun x v => Host.reduce IntOp.andi x v reducesTo_S2x128x128_S_d0_1_2 h_S_) main_v26 main_c_9
  let main_v28 : IVec S_ 1 := andi main_v23 main_v27
  main_v28

def fn {F : FTy → Type} [FloatOps F] (main_arg0 : FVec F S50000x128 .f32) (main_arg1 : FVec F S200x128 .f32) (main_arg2 : FVec F S50000x1 .f32) (main_arg3 : FVec F S2x128x128 .f32) (main_arg4 : FVec F S2x128x128 .f32) (main_arg5 : FVec F S2x128x128 .f32) (main_arg6 : IVec S500000 32) (main_arg7 : IVec S500000 32) (main_arg8 : IVec S500000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S200x128 .f32 := Host.absf main_arg1
  let main_cst_0 : FVec F S_ .f32 := constant S_ .f32 0x7F800000#32
  let main_v5 : FVec F S200x128 .f32 := broadcastInDim S200x128 ![] bcast_S_S200x128 main_cst_0
  let main_v6 : IVec S200x128 1 := cmpf .olt main_v4 main_v5
  let main_c_1 : IVec S_ 1 := constantI S_ 1 1#1
  let main_v7 : IVec S_ 1 := (fun x v => Host.reduce IntOp.andi x v reducesTo_S200x128_S_d0_1 h_S_) main_v6 main_c_1
  let main_v8 : IVec S_ 1 := andi main_v3 main_v7
  let main_v9 : FVec F S50000x1 .f32 := Host.absf main_arg2
  let main_cst_2 : FVec F S_ .f32 := constant S_ .f32 0x7F800000#32
  let main_v10 : FVec F S50000x1 .f32 := broadcastInDim S50000x1 ![] bcast_S_S50000x1 main_cst_2
  let main_v11 : IVec S50000x1 1 := cmpf .olt main_v9 main_v10
  let main_c_3 : IVec S_ 1 := constantI S_ 1 1#1
  let main_v12 : IVec S_ 1 := (fun x v => Host.reduce IntOp.andi x v reducesTo_S50000x1_S_d0_1 h_S_) main_v11 main_c_3
  let main_v13 : IVec S_ 1 := andi main_v8 main_v12
  let main_v14 : FVec F S2x128x128 .f32 := Host.absf main_arg3
  let main_cst_4 : FVec F S_ .f32 := constant S_ .f32 0x7F800000#32
  let main_v15 : FVec F S2x128x128 .f32 := broadcastInDim S2x128x128 ![] bcast_S_S2x128x128 main_cst_4
  let main_v16 : IVec S2x128x128 1 := cmpf .olt main_v14 main_v15
  fn_part1 (F := F) main_arg4 main_arg5 main_v13 main_v16
-- ==== Kernel.lean ====
abbrev S50000x128 : Shape := ⟨2, ![50000, 128]⟩
abbrev S200x128 : Shape := ⟨2, ![200, 128]⟩
abbrev S50000x1 : Shape := ⟨2, ![50000, 1]⟩
abbrev S2x128x128 : Shape := ⟨3, ![2, 128, 128]⟩
abbrev S500000 : Shape := ⟨1, ![500000]⟩
abbrev S_ : Shape := ⟨0, ![]⟩
abbrev S50000 : Shape := ⟨1, ![50000]⟩
abbrev S500000x1 : Shape := ⟨2, ![500000, 1]⟩
abbrev S500000x128 : Shape := ⟨2, ![500000, 128]⟩
abbrev S1x128x128 : Shape := ⟨3, ![1, 128, 128]⟩
abbrev S128x128 : Shape := ⟨2, ![128, 128]⟩
abbrev S2000x128 : Shape := ⟨2, ![2000, 128]⟩
abbrev S2000x1 : Shape := ⟨2, ![2000, 1]⟩

abbrev nBuf : Space → Nat
  | .hbm => 73
  | .vmem => 30
  | .smem => 0
  | _ => 0

abbrev bufTy : (tb : Table) → Fin (tcTables nBuf tb) → BufTy
  | .hbm, ⟨0, _⟩ => ⟨S50000x128, .f32⟩
  | .hbm, ⟨1, _⟩ => ⟨S200x128, .f32⟩
  | .hbm, ⟨2, _⟩ => ⟨S50000x1, .f32⟩
  | .hbm, ⟨3, _⟩ => ⟨S2x128x128, .f32⟩
  | .hbm, ⟨4, _⟩ => ⟨S2x128x128, .f32⟩
  | .hbm, ⟨5, _⟩ => ⟨S2x128x128, .f32⟩
  | .hbm, ⟨6, _⟩ => ⟨S500000, .i32⟩
  | .hbm, ⟨7, _⟩ => ⟨S500000, .i32⟩
  | .hbm, ⟨8, _⟩ => ⟨S500000, .i32⟩
  | .hbm, ⟨9, _⟩ => ⟨S_, .f32⟩
  | .hbm, ⟨10, _⟩ => ⟨S500000, .f32⟩
  | .hbm, ⟨11, _⟩ => ⟨S_, .f32⟩
  | .hbm, ⟨12, _⟩ => ⟨S50000, .f32⟩
  | .hbm, ⟨13, _⟩ => ⟨S500000x1, .i32⟩
  | .hbm, ⟨14, _⟩ => ⟨S50000, .f32⟩
  | .hbm, ⟨15, _⟩ => ⟨S_, .f32⟩
  | .hbm, ⟨16, _⟩ => ⟨S50000, .f32⟩
  | .hbm, ⟨17, _⟩ => ⟨S50000, .i1⟩
  | .hbm, ⟨18, _⟩ => ⟨S50000, .f32⟩
  | .hbm, ⟨19, _⟩ => ⟨S50000x1, .f32⟩
  | .hbm, ⟨20, _⟩ => ⟨S_, .i32⟩
  | .hbm, ⟨21, _⟩ => ⟨S500000, .i32⟩
  | .hbm, ⟨22, _⟩ => ⟨S500000, .i1⟩
  | .hbm, ⟨23, _⟩ => ⟨S_, .i32⟩
  | .hbm, ⟨24, _⟩ => ⟨S500000, .i32⟩
  | .hbm, ⟨25, _⟩ => ⟨S500000, .i32⟩
  | .hbm, ⟨26, _⟩ => ⟨S500000, .i32⟩
  | .hbm, ⟨27, _⟩ => ⟨S500000x1, .i32⟩
  | .hbm, ⟨28, _⟩ => ⟨S500000x128, .f32⟩
  | .hbm, ⟨29, _⟩ => ⟨S_, .f32⟩
  | .hbm, ⟨30, _⟩ => ⟨S50000x128, .f32⟩
  | .hbm, ⟨31, _⟩ => ⟨S500000x1, .i32⟩
  | .hbm, ⟨32, _⟩ => ⟨S50000x128, .f32⟩
  | .hbm, ⟨33, _⟩ => ⟨S_, .i32⟩
  | .hbm, ⟨34, _⟩ => ⟨S500000, .i32⟩
  | .hbm, ⟨35, _⟩ => ⟨S500000, .i1⟩
  | .hbm, ⟨36, _⟩ => ⟨S_, .i32⟩
  | .hbm, ⟨37, _⟩ => ⟨S500000, .i32⟩
  | .hbm, ⟨38, _⟩ => ⟨S500000, .i32⟩
  | .hbm, ⟨39, _⟩ => ⟨S500000, .i32⟩
  | .hbm, ⟨40, _⟩ => ⟨S500000x1, .i32⟩
  | .hbm, ⟨41, _⟩ => ⟨S500000x128, .f32⟩
  | .hbm, ⟨42, _⟩ => ⟨S_, .f32⟩
  | .hbm, ⟨43, _⟩ => ⟨S50000x128, .f32⟩
  | .hbm, ⟨44, _⟩ => ⟨S500000x1, .i32⟩
  | .hbm, ⟨45, _⟩ => ⟨S50000x128, .f32⟩
  | .hbm, ⟨46, _⟩ => ⟨S1x128x128, .f32⟩
  | .hbm, ⟨47, _⟩ => ⟨S128x128, .f32⟩
  | .hbm, ⟨48, _⟩ => ⟨S1x128x128, .f32⟩
  | .hbm, ⟨49, _⟩ => ⟨S128x128, .f32⟩
  | .hbm, ⟨50, _⟩ => ⟨S1x128x128, .f32⟩
  | .hbm, ⟨51, _⟩ => ⟨S128x128, .f32⟩
  | .hbm, ⟨52, _⟩ => ⟨S50000x128, .f32⟩
  | .hbm, ⟨53, _⟩ => ⟨S_, .i32⟩
  | .hbm, ⟨54, _⟩ => ⟨S500000, .i32⟩
  | .hbm, ⟨55, _⟩ => ⟨S500000, .i1⟩
  | .hbm, ⟨56, _⟩ => ⟨S_, .i32⟩
  | .hbm, ⟨57, _⟩ => ⟨S500000, .i32⟩
  | .hbm, ⟨58, _⟩ => ⟨S500000, .i32⟩
  | .hbm, ⟨59, _⟩ => ⟨S500000, .i32⟩
  | .hbm, ⟨60, _⟩ => ⟨S500000x1, .i32⟩
  | .hbm, ⟨61, _⟩ => ⟨S500000x128, .f32⟩
  | .hbm, ⟨62, _⟩ => ⟨S_, .f32⟩
  | .hbm, ⟨63, _⟩ => ⟨S50000x128, .f32⟩
  | .hbm, ⟨64, _⟩ => ⟨S500000x1, .i32⟩
  | .hbm, ⟨65, _⟩ => ⟨S50000x128, .f32⟩
  | .hbm, ⟨66, _⟩ => ⟨S1x128x128, .f32⟩
  | .hbm, ⟨67, _⟩ => ⟨S128x128, .f32⟩
  | .hbm, ⟨68, _⟩ => ⟨S1x128x128, .f32⟩
  | .hbm, ⟨69, _⟩ => ⟨S128x128, .f32⟩
  | .hbm, ⟨70, _⟩ => ⟨S1x128x128, .f32⟩
  | .hbm, ⟨71, _⟩ => ⟨S128x128, .f32⟩
  | .hbm, ⟨72, _⟩ => ⟨S50000x128, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S2000x1, .f32⟩
  | .local _ .vmem, ⟨5, _⟩ => ⟨S2000x1, .f32⟩
  | .local _ .vmem, ⟨6, _⟩ => ⟨S2000x128, .f32⟩
  | .local _ .vmem, ⟨7, _⟩ => ⟨S2000x128, .f32⟩
  | .local _ .vmem, ⟨8, _⟩ => ⟨S2000x1, .f32⟩
  | .local _ .vmem, ⟨9, _⟩ => ⟨S2000x1, .f32⟩
  | .local _ .vmem, ⟨10, _⟩ => ⟨S128x128, .f32⟩
  | .local _ .vmem, ⟨11, _⟩ => ⟨S128x128, .f32⟩
  | .local _ .vmem, ⟨12, _⟩ => ⟨S128x128, .f32⟩
  | .local _ .vmem, ⟨13, _⟩ => ⟨S2000x128, .f32⟩
  | .local _ .vmem, ⟨14, _⟩ => ⟨S2000x128, .f32⟩
  | .local _ .vmem, ⟨15, _⟩ => ⟨S2000x128, .f32⟩
  | .local _ .vmem, ⟨16, _⟩ => ⟨S2000x128, .f32⟩
  | .local _ .vmem, ⟨17, _⟩ => ⟨S2000x128, .f32⟩
  | .local _ .vmem, ⟨18, _⟩ => ⟨S2000x128, .f32⟩
  | .local _ .vmem, ⟨19, _⟩ => ⟨S2000x1, .f32⟩
  | .local _ .vmem, ⟨20, _⟩ => ⟨S2000x1, .f32⟩
  | .local _ .vmem, ⟨21, _⟩ => ⟨S2000x128, .f32⟩
  | .local _ .vmem, ⟨22, _⟩ => ⟨S2000x128, .f32⟩
  | .local _ .vmem, ⟨23, _⟩ => ⟨S2000x1, .f32⟩
  | .local _ .vmem, ⟨24, _⟩ => ⟨S2000x1, .f32⟩
  | .local _ .vmem, ⟨25, _⟩ => ⟨S128x128, .f32⟩
  | .local _ .vmem, ⟨26, _⟩ => ⟨S128x128, .f32⟩
  | .local _ .vmem, ⟨27, _⟩ => ⟨S128x128, .f32⟩
  | .local _ .vmem, ⟨28, _⟩ => ⟨S2000x128, .f32⟩
  | .local _ .vmem, ⟨29, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_c : Ref sig .tc := ⟨.hbm, 20, rfl⟩
abbrev main_v8 : Ref sig .tc := ⟨.hbm, 21, rfl⟩
abbrev main_v9 : Ref sig .tc := ⟨.hbm, 22, rfl⟩
abbrev main_c_2 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_3 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_c_4 : Ref sig .tc := ⟨.hbm, 33, rfl⟩
abbrev main_v18 : Ref sig .tc := ⟨.hbm, 34, rfl⟩
abbrev main_v19 : Ref sig .tc := ⟨.hbm, 35, rfl⟩
abbrev main_c_5 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_6 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_c_7 : Ref sig .tc := ⟨.hbm, 53, rfl⟩
abbrev main_v35 : Ref sig .tc := ⟨.hbm, 54, rfl⟩
abbrev main_v36 : Ref sig .tc := ⟨.hbm, 55, rfl⟩
abbrev main_c_8 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_9 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc1_stg0_0 : Ref sig .tc := ⟨.vmem, 15, rfl⟩
abbrev cc1_stg0_1 : Ref sig .tc := ⟨.vmem, 16, rfl⟩
abbrev cc1_stg1_0 : Ref sig .tc := ⟨.vmem, 17, rfl⟩
abbrev cc1_stg1_1 : Ref sig .tc := ⟨.vmem, 18, rfl⟩
abbrev cc1_stg2_0 : Ref sig .tc := ⟨.vmem, 19, rfl⟩
abbrev cc1_stg2_1 : Ref sig .tc := ⟨.vmem, 20, rfl⟩
abbrev cc1_stg3_0 : Ref sig .tc := ⟨.vmem, 21, rfl⟩
abbrev cc1_stg3_1 : Ref sig .tc := ⟨.vmem, 22, rfl⟩
abbrev cc1_stg4_0 : Ref sig .tc := ⟨.vmem, 23, rfl⟩
abbrev cc1_stg4_1 : Ref sig .tc := ⟨.vmem, 24, rfl⟩
abbrev cc1_stg5_0 : Ref sig .tc := ⟨.vmem, 25, rfl⟩
abbrev cc1_stg6_0 : Ref sig .tc := ⟨.vmem, 26, rfl⟩
abbrev cc1_stg7_0 : Ref sig .tc := ⟨.vmem, 27, rfl⟩
abbrev cc1_stg8_0 : Ref sig .tc := ⟨.vmem, 28, rfl⟩
abbrev cc1_stg8_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14
abbrev cc1_sem0_0 : DmaSem sig := 15
abbrev cc1_sem0_1 : DmaSem sig := 16
abbrev cc1_sem1_0 : DmaSem sig := 17
abbrev cc1_sem1_1 : DmaSem sig := 18
abbrev cc1_sem2_0 : DmaSem sig := 19
abbrev cc1_sem2_1 : DmaSem sig := 20
abbrev cc1_sem3_0 : DmaSem sig := 21
abbrev cc1_sem3_1 : DmaSem sig := 22
abbrev cc1_sem4_0 : DmaSem sig := 23
abbrev cc1_sem4_1 : DmaSem sig := 24
abbrev cc1_sem5_0 : DmaSem sig := 25
abbrev cc1_sem6_0 : DmaSem sig := 26
abbrev cc1_sem7_0 : DmaSem sig := 27
abbrev cc1_sem8_0 : DmaSem sig := 28
abbrev cc1_sem8_1 : DmaSem sig := 29

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2000x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S2000x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S2000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S2000x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S128x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S2000x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

class Facts₀ : Prop where
  bcast_S_S500000 : S_.BroadcastsInDim S500000 (![] : Fin 0 → Fin S500000.rank)
  bcast_S_S50000 : S_.BroadcastsInDim S50000 (![] : Fin 0 → Fin S50000.rank)
  bcast_S500000_S500000x1_0 : S500000.BroadcastsInDim S500000x1 (![0] : Fin 1 → Fin S500000x1.rank)
  bcast_S50000_S50000x1_0 : S50000.BroadcastsInDim S50000x1 (![0] : Fin 1 → Fin S50000x1.rank)
  bcast_S_S50000x128 : S_.BroadcastsInDim S50000x128 (![] : Fin 0 → Fin S50000x128.rank)
  slices_S2x128x128_S1x128x128_0_0_0 : S2x128x128.Slices ![0, 0, 0] S1x128x128
  shapeCasts_S1x128x128_S128x128 : S1x128x128.ShapeCasts S128x128
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  shapeCasts_S2000x128_S2000x128 : S2000x128.ShapeCasts S2000x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  slices_S2x128x128_S1x128x128_1_0_0 : S2x128x128.Slices ![1, 0, 0] S1x128x128
  scatter_S50000_S500000x1_S500000_n_0_0_1_wf : ScatterDims.WF S50000 S500000x1 S500000 [] [0] [0] 1
  gather_S200x128_S500000x1_S500000x128_1_0_n_n_0_1_1128_wf : GatherDims.WF S200x128 S500000x1 S500000x128 [1] [0] [] [0] [] 1 ![1, 128]
  scatter_S50000x128_S500000x1_S500000x128_1_0_0_1_wf : ScatterDims.WF S50000x128 S500000x1 S500000x128 [1] [0] [0] 1
  gather_S50000x128_S500000x1_S500000x128_1_0_n_n_0_1_1128_wf : GatherDims.WF S50000x128 S500000x1 S500000x128 [1] [0] [] [0] [] 1 ![1, 128]
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1.size a ≤ S50000x1.size a
  hwx0_2 : ∀ i : grid0.Coords, EltTy.bits .f32 = 32 ∨ (Rect.block (s := S50000x1) S2000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S50000x128.size a
  hwx0_3 : ∀ i : grid0.Coords, EltTy.bits .f32 = 32 ∨ (Rect.block (s := S50000x128) S2000x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x1.size a ≤ S50000x1.size a
  hwx0_4 : ∀ i : grid0.Coords, EltTy.bits .f32 = 32 ∨ (Rect.block (s := S50000x1) S2000x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x128.size a ≤ S128x128.size a
  hwx0_6 : ∀ i : grid0.Coords, EltTy.bits .f32 = 32 ∨ (Rect.block (s := S128x128) S128x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .f32 = 32 ∨ (Rect.block (s := S128x128) S128x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S2000x128.size a ≤ S50000x128.size a
  hwx0_8 : ∀ i : grid0.Coords, EltTy.bits .f32 = 32 ∨ (Rect.block (s := S50000x128) S2000x128.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S50000x1.size a
  hwx1_2 : ∀ i : grid1.Coords, EltTy.bits .f32 = 32 ∨ (Rect.block (s := S50000x1) S2000x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x128.size a ≤ S50000x128.size a
  hwx1_3 : ∀ i : grid1.Coords, EltTy.bits .f32 = 32 ∨ (Rect.block (s := S50000x128) S2000x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x1.size a ≤ S50000x1.size a
  hwx1_4 : ∀ i : grid1.Coords, EltTy.bits .f32 = 32 ∨ (Rect.block (s := S50000x1) S2000x1.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128x128.size a ≤ S128x128.size a
  hwx1_6 : ∀ i : grid1.Coords, EltTy.bits .f32 = 32 ∨ (Rect.block (s := S128x128) S128x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S128x128.size a ≤ S128x128.size a
  hwx1_7 : ∀ i : grid1.Coords, EltTy.bits .f32 = 32 ∨ (Rect.block (s := S128x128) S128x128.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S2000x128.size a ≤ S50000x128.size a
  hwx1_8 : ∀ i : grid1.Coords, EltTy.bits .f32 = 32 ∨ (Rect.block (s := S50000x128) S2000x128.size (cc1_transform_8 i) (hinb1_8 i)).WholeWords (EltTy.packing .f32)

variable [Facts₀]

def scatter_S50000_S500000x1_S500000_n_0_0_1 : ScatterDims S50000 S500000x1 S500000 where
  updateWindowDims := []
  insertedWindowDims := [0]
  scatterDimsToOperandDims := [0]
  indexVectorDim := 1
  wf := scatter_S50000_S500000x1_S500000_n_0_0_1_wf
def gather_S200x128_S500000x1_S500000x128_1_0_n_n_0_1_1128 : GatherDims S200x128 S500000x1 S500000x128 where
  offsetDims := [1]
  collapsedSliceDims := [0]
  operandBatchingDims := []
  startIndicesBatchingDims := []
  startIndexMap := [0]
  indexVectorDim := 1
  sliceSizes := ![1, 128]
  wf := gather_S200x128_S500000x1_S500000x128_1_0_n_n_0_1_1128_wf
def scatter_S50000x128_S500000x1_S500000x128_1_0_0_1 : ScatterDims S50000x128 S500000x1 S500000x128 where
  updateWindowDims := [1]
  insertedWindowDims := [0]
  scatterDimsToOperandDims := [0]
  indexVectorDim := 1
  wf := scatter_S50000x128_S500000x1_S500000x128_1_0_0_1_wf
def gather_S50000x128_S500000x1_S500000x128_1_0_n_n_0_1_1128 : GatherDims S50000x128 S500000x1 S500000x128 where
  offsetDims := [1]
  collapsedSliceDims := [0]
  operandBatchingDims := []
  startIndicesBatchingDims := []
  startIndexMap := [0]
  indexVectorDim := 1
  sliceSizes := ![1, 128]
  wf := gather_S50000x128_S500000x1_S500000x128_1_0_n_n_0_1_1128_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_v27) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg0) S2000x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v7) S2000x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v29) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v31) S128x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v33) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v34) S2000x128.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v44) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v34) S2000x128.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v7) S2000x1.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v46) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v48) S128x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v50) S128x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v51) S2000x128.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

class Facts : Prop extends Facts₀ where

variable [Facts]
-- ==== ReferenceIdeal.lean ====
abbrev S50000x128 : Shape := ⟨2, ![50000, 128]⟩
abbrev S200x128 : Shape := ⟨2, ![200, 128]⟩
abbrev S50000x1 : Shape := ⟨2, ![50000, 1]⟩
abbrev S2x128x128 : Shape := ⟨3, ![2, 128, 128]⟩
abbrev S500000 : Shape := ⟨1, ![500000]⟩
abbrev S_ : Shape := ⟨0, ![]⟩
abbrev S50000 : Shape := ⟨1, ![50000]⟩
abbrev S500000x1 : Shape := ⟨2, ![500000, 1]⟩
abbrev S500000x128 : Shape := ⟨2, ![500000, 128]⟩
abbrev S1x128x128 : Shape := ⟨3, ![1, 128, 128]⟩
abbrev S128x128 : Shape := ⟨2, ![128, 128]⟩

abbrev nBuf : Space → Nat
  | .hbm => 107
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S200x128, .f32⟩
  | .hbm, ⟨2, _⟩ => ⟨S50000x1, .f32⟩
  | .hbm, ⟨3, _⟩ => ⟨S2x128x128, .f32⟩
  | .hbm, ⟨4, _⟩ => ⟨S2x128x128, .f32⟩
  | .hbm, ⟨5, _⟩ => ⟨S2x128x128, .f32⟩
  | .hbm, ⟨6, _⟩ => ⟨S500000, .i32⟩
  | .hbm, ⟨7, _⟩ => ⟨S500000, .i32⟩
  | .hbm, ⟨8, _⟩ => ⟨S500000, .i32⟩
  | .hbm, ⟨9, _⟩ => ⟨S_, .f32⟩
  | .hbm, ⟨10, _⟩ => ⟨S500000, .f32⟩
  | .hbm, ⟨11, _⟩ => ⟨S_, .f32⟩
  | .hbm, ⟨12, _⟩ => ⟨S50000, .f32⟩
  | .hbm, ⟨13, _⟩ => ⟨S500000x1, .i32⟩
  | .hbm, ⟨14, _⟩ => ⟨S50000, .f32⟩
  | .hbm, ⟨15, _⟩ => ⟨S_, .f32⟩
  | .hbm, ⟨16, _⟩ => ⟨S50000, .f32⟩
  | .hbm, ⟨17, _⟩ => ⟨S50000, .i1⟩
  | .hbm, ⟨18, _⟩ => ⟨S50000x1, .i1⟩
  | .hbm, ⟨19, _⟩ => ⟨S_, .i32⟩
  | .hbm, ⟨20, _⟩ => ⟨S500000, .i32⟩
  | .hbm, ⟨21, _⟩ => ⟨S500000, .i1⟩
  | .hbm, ⟨22, _⟩ => ⟨S_, .i32⟩
  | .hbm, ⟨23, _⟩ => ⟨S500000, .i32⟩
  | .hbm, ⟨24, _⟩ => ⟨S500000, .i32⟩
  | .hbm, ⟨25, _⟩ => ⟨S500000, .i32⟩
  | .hbm, ⟨26, _⟩ => ⟨S500000x1, .i32⟩
  | .hbm, ⟨27, _⟩ => ⟨S500000x128, .f32⟩
  | .hbm, ⟨28, _⟩ => ⟨S_, .i32⟩
  | .hbm, ⟨29, _⟩ => ⟨S500000, .i32⟩
  | .hbm, ⟨30, _⟩ => ⟨S500000, .i1⟩
  | .hbm, ⟨31, _⟩ => ⟨S_, .i32⟩
  | .hbm, ⟨32, _⟩ => ⟨S500000, .i32⟩
  | .hbm, ⟨33, _⟩ => ⟨S500000, .i32⟩
  | .hbm, ⟨34, _⟩ => ⟨S500000, .i32⟩
  | .hbm, ⟨35, _⟩ => ⟨S500000x1, .i32⟩
  | .hbm, ⟨36, _⟩ => ⟨S500000x128, .f32⟩
  | .hbm, ⟨37, _⟩ => ⟨S500000x128, .f32⟩
  | .hbm, ⟨38, _⟩ => ⟨S1x128x128, .f32⟩
  | .hbm, ⟨39, _⟩ => ⟨S128x128, .f32⟩
  | .hbm, ⟨40, _⟩ => ⟨S500000x128, .f32⟩
  | .hbm, ⟨41, _⟩ => ⟨S_, .f32⟩
  | .hbm, ⟨42, _⟩ => ⟨S50000x128, .f32⟩
  | .hbm, ⟨43, _⟩ => ⟨S500000x1, .i32⟩
  | .hbm, ⟨44, _⟩ => ⟨S50000x128, .f32⟩
  | .hbm, ⟨45, _⟩ => ⟨S50000x128, .f32⟩
  | .hbm, ⟨46, _⟩ => ⟨S50000x128, .f32⟩
  | .hbm, ⟨47, _⟩ => ⟨S1x128x128, .f32⟩
  | .hbm, ⟨48, _⟩ => ⟨S128x128, .f32⟩
  | .hbm, ⟨49, _⟩ => ⟨S50000x128, .f32⟩
  | .hbm, ⟨50, _⟩ => ⟨S1x128x128, .f32⟩
  | .hbm, ⟨51, _⟩ => ⟨S128x128, .f32⟩
  | .hbm, ⟨52, _⟩ => ⟨S50000x128, .f32⟩
  | .hbm, ⟨53, _⟩ => ⟨S50000x128, .i1⟩
  | .hbm, ⟨54, _⟩ => ⟨S50000x128, .f32⟩
  | .hbm, ⟨55, _⟩ => ⟨S50000x128, .f32⟩
  | .hbm, ⟨56, _⟩ => ⟨S_, .f32⟩
  | .hbm, ⟨57, _⟩ => ⟨S50000x128, .f32⟩
  | .hbm, ⟨58, _⟩ => ⟨S50000x128, .i1⟩
  | .hbm, ⟨59, _⟩ => ⟨S_, .f32⟩
  | .hbm, ⟨60, _⟩ => ⟨S50000x128, .f32⟩
  | .hbm, ⟨61, _⟩ => ⟨S50000x128, .f32⟩
  | .hbm, ⟨62, _⟩ => ⟨S50000x128, .f32⟩
  | .hbm, ⟨63, _⟩ => ⟨S_, .i32⟩
  | .hbm, ⟨64, _⟩ => ⟨S500000, .i32⟩
  | .hbm, ⟨65, _⟩ => ⟨S500000, .i1⟩
  | .hbm, ⟨66, _⟩ => ⟨S_, .i32⟩
  | .hbm, ⟨67, _⟩ => ⟨S500000, .i32⟩
  | .hbm, ⟨68, _⟩ => ⟨S500000, .i32⟩
  | .hbm, ⟨69, _⟩ => ⟨S500000, .i32⟩
  | .hbm, ⟨70, _⟩ => ⟨S500000x1, .i32⟩
  | .hbm, ⟨71, _⟩ => ⟨S500000x128, .f32⟩
  | .hbm, ⟨72, _⟩ => ⟨S_, .i32⟩
  | .hbm, ⟨73, _⟩ => ⟨S500000, .i32⟩
  | .hbm, ⟨74, _⟩ => ⟨S500000, .i1⟩
  | .hbm, ⟨75, _⟩ => ⟨S_, .i32⟩
  | .hbm, ⟨76, _⟩ => ⟨S500000, .i32⟩
  | .hbm, ⟨77, _⟩ => ⟨S500000, .i32⟩
  | .hbm, ⟨78, _⟩ => ⟨S500000, .i32⟩
  | .hbm, ⟨79, _⟩ => ⟨S500000x1, .i32⟩
  | .hbm, ⟨80, _⟩ => ⟨S500000x128, .f32⟩
  | .hbm, ⟨81, _⟩ => ⟨S500000x128, .f32⟩
  | .hbm, ⟨82, _⟩ => ⟨S1x128x128, .f32⟩
  | .hbm, ⟨83, _⟩ => ⟨S128x128, .f32⟩
  | .hbm, ⟨84, _⟩ => ⟨S500000x128, .f32⟩
  | .hbm, ⟨85, _⟩ => ⟨S_, .f32⟩
  | .hbm, ⟨86, _⟩ => ⟨S50000x128, .f32⟩
  | .hbm, ⟨87, _⟩ => ⟨S500000x1, .i32⟩
  | .hbm, ⟨88, _⟩ => ⟨S50000x128, .f32⟩
  | .hbm, ⟨89, _⟩ => ⟨S50000x128, .f32⟩
  | .hbm, ⟨90, _⟩ => ⟨S50000x128, .f32⟩
  | .hbm, ⟨91, _⟩ => ⟨S1x128x128, .f32⟩
  | .hbm, ⟨92, _⟩ => ⟨S128x128, .f32⟩
  | .hbm, ⟨93, _⟩ => ⟨S50000x128, .f32⟩
  | .hbm, ⟨94, _⟩ => ⟨S1x128x128, .f32⟩
  | .hbm, ⟨95, _⟩ => ⟨S128x128, .f32⟩
  | .hbm, ⟨96, _⟩ => ⟨S50000x128, .f32⟩
  | .hbm, ⟨97, _⟩ => ⟨S50000x128, .i1⟩
  | .hbm, ⟨98, _⟩ => ⟨S50000x128, .f32⟩
  | .hbm, ⟨99, _⟩ => ⟨S50000x128, .f32⟩
  | .hbm, ⟨100, _⟩ => ⟨S_, .f32⟩
  | .hbm, ⟨101, _⟩ => ⟨S50000x128, .f32⟩
  | .hbm, ⟨102, _⟩ => ⟨S50000x128, .i1⟩
  | .hbm, ⟨103, _⟩ => ⟨S_, .f32⟩
  | .hbm, ⟨104, _⟩ => ⟨S50000x128, .f32⟩
  | .hbm, ⟨105, _⟩ => ⟨S50000x128, .f32⟩
  | .hbm, ⟨106, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_c : Ref sig .tc := ⟨.hbm, 19, rfl⟩
abbrev main_v7 : Ref sig .tc := ⟨.hbm, 20, rfl⟩
abbrev main_v8 : Ref sig .tc := ⟨.hbm, 21, rfl⟩
abbrev main_c_2 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_c_3 : Ref sig .tc := ⟨.hbm, 28, rfl⟩
abbrev main_v14 : Ref sig .tc := ⟨.hbm, 29, rfl⟩
abbrev main_v15 : Ref sig .tc := ⟨.hbm, 30, rfl⟩
abbrev main_c_4 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_5 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_call0_v0 : Ref sig .tc := ⟨.hbm, 53, rfl⟩
abbrev main_v36 : Ref sig .tc := ⟨.hbm, 54, rfl⟩
abbrev main_v37 : Ref sig .tc := ⟨.hbm, 55, rfl⟩
abbrev main_cst_6 : Ref sig .tc := ⟨.hbm, 56, rfl⟩
abbrev main_v38 : Ref sig .tc := ⟨.hbm, 57, rfl⟩
abbrev main_v39 : Ref sig .tc := ⟨.hbm, 58, rfl⟩
abbrev main_cst_7 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_c_8 : Ref sig .tc := ⟨.hbm, 63, rfl⟩
abbrev main_v43 : Ref sig .tc := ⟨.hbm, 64, rfl⟩
abbrev main_v44 : Ref sig .tc := ⟨.hbm, 65, rfl⟩
abbrev main_c_9 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_c_10 : Ref sig .tc := ⟨.hbm, 72, rfl⟩
abbrev main_v50 : Ref sig .tc := ⟨.hbm, 73, rfl⟩
abbrev main_v51 : Ref sig .tc := ⟨.hbm, 74, rfl⟩
abbrev main_c_11 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_cst_12 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_call2_v0 : Ref sig .tc := ⟨.hbm, 97, rfl⟩
abbrev main_v72 : Ref sig .tc := ⟨.hbm, 98, rfl⟩
abbrev main_v73 : Ref sig .tc := ⟨.hbm, 99, rfl⟩
abbrev main_cst_13 : Ref sig .tc := ⟨.hbm, 100, rfl⟩
abbrev main_v74 : Ref sig .tc := ⟨.hbm, 101, rfl⟩
abbrev main_v75 : Ref sig .tc := ⟨.hbm, 102, rfl⟩
abbrev main_cst_14 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩

abbrev nD : Nat := 1
abbrev τ : Topo := Topo.v7x

variable {F : FTy → Type} [FloatOps F]

class Facts₀ : Prop where
  bcast_S_S500000 : S_.BroadcastsInDim S500000 (![] : Fin 0 → Fin S500000.rank)
  bcast_S_S50000 : S_.BroadcastsInDim S50000 (![] : Fin 0 → Fin S50000.rank)
  bcast_S500000_S500000x1_0 : S500000.BroadcastsInDim S500000x1 (![0] : Fin 1 → Fin S500000x1.rank)
  bcast_S50000_S50000x1_0 : S50000.BroadcastsInDim S50000x1 (![0] : Fin 1 → Fin S50000x1.rank)
  slices_S2x128x128_S1x128x128_0_0_0 : S2x128x128.Slices ![0, 0, 0] S1x128x128
  shapeCasts_S1x128x128_S128x128 : S1x128x128.ShapeCasts S128x128
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  slices_S2x128x128_S1x128x128_1_0_0 : S2x128x128.Slices ![1, 0, 0] S1x128x128
  scatter_S50000_S500000x1_S500000_n_0_0_1_wf : ScatterDims.WF S50000 S500000x1 S500000 [] [0] [0] 1
  gather_S50000x128_S500000x1_S500000x128_1_0_n_n_0_1_1128_wf : GatherDims.WF S50000x128 S500000x1 S500000x128 [1] [0] [] [0] [] 1 ![1, 128]
  gather_S200x128_S500000x1_S500000x128_1_0_n_n_0_1_1128_wf : GatherDims.WF S200x128 S500000x1 S500000x128 [1] [0] [] [0] [] 1 ![1, 128]
  dot_S500000x128_S128x128_S500000x128_1_0_0_1_n_n_wf : DotDims.WF S500000x128 S128x128 S500000x128 [1] [0] [0] [1] [] []
  scatter_S50000x128_S500000x1_S500000x128_1_0_0_1_wf : ScatterDims.WF S50000x128 S500000x1 S500000x128 [1] [0] [0] 1
  dot_S50000x128_S128x128_S50000x128_1_0_0_1_n_n_wf : DotDims.WF S50000x128 S128x128 S50000x128 [1] [0] [0] [1] [] []

variable [Facts₀]

def scatter_S50000_S500000x1_S500000_n_0_0_1 : ScatterDims S50000 S500000x1 S500000 where
  updateWindowDims := []
  insertedWindowDims := [0]
  scatterDimsToOperandDims := [0]
  indexVectorDim := 1
  wf := scatter_S50000_S500000x1_S500000_n_0_0_1_wf
def gather_S50000x128_S500000x1_S500000x128_1_0_n_n_0_1_1128 : GatherDims S50000x128 S500000x1 S500000x128 where
  offsetDims := [1]
  collapsedSliceDims := [0]
  operandBatchingDims := []
  startIndicesBatchingDims := []
  startIndexMap := [0]
  indexVectorDim := 1
  sliceSizes := ![1, 128]
  wf := gather_S50000x128_S500000x1_S500000x128_1_0_n_n_0_1_1128_wf
def gather_S200x128_S500000x1_S500000x128_1_0_n_n_0_1_1128 : GatherDims S200x128 S500000x1 S500000x128 where
  offsetDims := [1]
  collapsedSliceDims := [0]
  operandBatchingDims := []
  startIndicesBatchingDims := []
  startIndexMap := [0]
  indexVectorDim := 1
  sliceSizes := ![1, 128]
  wf := gather_S200x128_S500000x1_S500000x128_1_0_n_n_0_1_1128_wf
def dot_S500000x128_S128x128_S500000x128_1_0_0_1_n_n : DotDims S500000x128 S128x128 S500000x128 where
  lhsContracting := [1]
  rhsContracting := [0]
  lhsNonContracting := [0]
  rhsNonContracting := [1]
  lhsBatch := []
  rhsBatch := []
  wf := dot_S500000x128_S128x128_S500000x128_1_0_0_1_n_n_wf
def scatter_S50000x128_S500000x1_S500000x128_1_0_0_1 : ScatterDims S50000x128 S500000x1 S500000x128 where
  updateWindowDims := [1]
  insertedWindowDims := [0]
  scatterDimsToOperandDims := [0]
  indexVectorDim := 1
  wf := scatter_S50000x128_S500000x1_S500000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.KernelRun.lean ====
/-
  The idealized kernel's run with its result named.

  @main of the kernel's program is two launches of the node kernel among two stretches of host operations. Every weakly fair
  execution terminates without a fault; at the end each argument array is as launched, and the result array holds what the
  second launch's write-backs leave in it: the last boundary's contents read at the result's buffer. The run itself is the
  one the frame certificate makes (the launch over the four segments); only the final state is read at one more buffer.
-/
import proofs.«113642_j49624052138542_2_alg».proof.Proof.FrameKIP

set_option maxRecDepth 16384

noncomputable section

namespace Cert.KernelIdeal.Run

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel's @main terminates, nothing faulting; the result buffer ends at the last
    boundary's contents and the nine argument arrays end as launched. -/
theorem run_result : θ_run defs (onTc (τ := τ) (main (F := F))) ⟨m, fun _ => 0, ρ⟩ (fun r => ∀ c : Dev nD,
      r.2.mem ((c.tc : Thread nD τ).loc main_v51) = W4 m ρ c (Proc.devRef .tc main_v51)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v51 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c)⟩)

/-- The result's buffer is the second launch's output array: it ends at what that launch's write-backs leave. -/
theorem result_arr (c : Dev nD) :
    W4 m ρ c (Proc.devRef .tc main_v51) = (dat1 (V3 m ρ) c).arrAt 8 cfg1.N :=
  W4_arr m ρ c 8

end Cert.KernelIdeal.Run

end
-- ==== Proof.NodeSpec.lean ====
/-
  One entry of a message-passing layer, and the law that lets the weight product move across the sum over edges.

  A node's new feature at column j is  act (agg · norm + (if the node has an incoming edge then loopN else loopA)),
  where act x = x for x ≥ 0 and slope · x otherwise. The two programs differ only in agg: one multiplies every edge's
  message (a + b) by the weight column and then adds up the edges that arrive at the node; the other adds up the a's and the
  b's of those edges first and multiplies the two sums by the weight column once. Over the reals these agree: the product
  distributes over a finite sum and two finite sums exchange. On the extended reals that needs every entry finite, which is
  what the hypotheses below say.
-/
import Idealize.ShloMosaic.PureOps.Ideal
import Idealize.ShloMosaic.PureOps.Ideal.Laws

noncomputable section

namespace Cert.NodeSpec

open Idealize.ShloMosaic

/-- An entry of an array of extended reals that is a real number. -/
def IsReal (x : EReal) : Prop := ∃ r : ℝ, x = (r : EReal)

theorem IsReal.coe (r : ℝ) : IsReal (r : EReal) := ⟨r, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.zero : IsReal (0 : EReal) := ⟨0, rfl⟩

/-- A finite sum of reals, read in the extended reals, is the sum of the readings. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem IsReal.sum {ι : Type} (s : Finset ι) (f : ι → EReal) (h : ∀ i ∈ s, IsReal (f i)) : IsReal (∑ i ∈ s, f i) := by
  classical
  induction s using Finset.induction_on with
  | empty => simpa using IsReal.zero
  | insert a s ha ih =>
    rw [Finset.sum_insert ha]
    exact (h a (Finset.mem_insert_self a s)).add (ih fun i hi => h i (Finset.mem_insert_of_mem hi))

theorem IsReal.ite {c : Prop} [Decidable c] {x y : EReal} (hx : IsReal x) (hy : IsReal y) : IsReal (if c then x else y) := by
  split_ifs <;> assumption

/-- THE EXCHANGE. Over edges `e` selected by `p` and a contraction index `k`, with every entry a real:
    Σ_k ((0 + Σ_{e : p e} a e k) + (0 + Σ_{e : p e} b e k)) · w k  =  0 + Σ_{e : p e} Σ_k (a e k + b e k) · w k. -/
theorem exchange {E K : Type} [Fintype E] [Fintype K] (p : E → Prop) [DecidablePred p] (a b : E → K → EReal) (w : K → EReal)
    (ha : ∀ e k, IsReal (a e k)) (hb : ∀ e k, IsReal (b e k)) (hw : ∀ k, IsReal (w k)) :
    ∑ k, ((0 + ∑ e, if p e then a e k else 0) + (0 + ∑ e, if p e then b e k else 0)) * w k
      = 0 + ∑ e, if p e then ∑ k, (a e k + b e k) * w k else 0 := by
  classical
  choose a' ha' using ha
  choose b' hb' using hb
  choose w' hw' using hw
  simp only [← Finset.sum_filter, zero_add, ha', hb', hw']
  simp only [← EReal.coe_add, ← EReal.coe_mul, ← coe_sum]
  refine congrArg _ ?_
  rw [Finset.sum_comm]
  refine Finset.sum_congr rfl fun k _ => ?_
  rw [← Finset.sum_add_distrib, Finset.sum_mul]

/-- The activation: x where x ≥ 0, slope · x elsewhere, with the slope's float word kept as it is printed. -/
def act (x : EReal) : EReal :=
  Scalar.select (Ideal.cmp .oge x (Ideal.ofBits .f32 0x00000000#32)) x (x * Ideal.ofBits .f32 0x3E6AAAAB#32)

/-- One entry of the layer: the aggregate scaled by the node's norm, plus the self-loop term chosen by the node's bit. -/
def nodeOut (agg nv : EReal) (c : BitVec 1) (ln la : EReal) : EReal :=
  act (agg * nv + Scalar.select c ln la)

/-- The slope's word denotes a real number (a normal float: its exponent field is not all ones). -/
theorem slope_real : IsReal (Ideal.ofBits .f32 0x3E6AAAAB#32) := by
  unfold Ideal.ofBits Ideal.ieee
  simp only []
  rw [if_neg (by decide), if_neg (by decide)]
  exact ⟨_, rfl⟩

theorem act_real {x : EReal} (hx : IsReal x) : IsReal (act x) := by
  unfold act Scalar.select
  split_ifs
  · exact hx
  · exact hx.mul slope_real

theorem nodeOut_real {agg nv ln la : EReal} (c : BitVec 1) (h1 : IsReal agg) (h2 : IsReal nv) (h3 : IsReal ln) (h4 : IsReal la) :
    IsReal (nodeOut agg nv c ln la) := by
  unfold nodeOut
  refine act_real ((h1.mul h2).add ?_)
  unfold Scalar.select
  split_ifs <;> assumption

/-- The float word 0x3F800000 is 1. -/
theorem word_one : Ideal.ofBits .f32 0x3F800000#32 = 1 := by
  simp [Ideal.ofBits, Ideal.ieee]
  rw [← EReal.coe_mul]
  norm_num

/-- A bit turned into a float (0 or 1) equals 1 exactly when the bit is set. -/
theorem cmp_oeq_bit (c : BitVec 1) :
    Ideal.cmp .oeq (((c.toNat : ℝ) : EReal)) (Ideal.ofBits .f32 0x3F800000#32) = c := by
  rw [word_one]
  unfold Ideal.cmp
  have h : c = 0#1 ∨ c = 1#1 := by
    have := c.isLt
    rcases Nat.lt_or_ge c.toNat 1 with h | h
    · left; exact BitVec.eq_of_toNat_eq (by simp; omega)
    · right; exact BitVec.eq_of_toNat_eq (by simp; omega)
  rcases h with rfl | rfl <;> simp

end Cert.NodeSpec

end
-- ==== Proof.LibKeepdims.lean ====
/-
  Two layout operations of a row reduction kept as a column, read at coordinates: a vector of `a` entries cast to
  an `a × 1` column, and such a column laid along the `b` columns of an `a × b` matrix. Entry (i, ·) of either is
  entry `i` of the vector: the cast keeps the row-major position, and the broadcast reads position 0 of the unit axis.
-/
import Idealize.ShloMosaic.Lib.ValueIdx
import Idealize.ShloMosaic.Lib.Pipeline.Value

namespace Cert.Keepdims

open Idealize.ShloMosaic Idealize.ShloMosaic.ValueIdx

variable {α : Type}

/-- A vector cast to a column: entry (i, u) of the column is entry `i` of the vector (the unit coordinate `u` is 0, so
    the row-major position `i · 1 + u` is `i`). -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column laid along every column of a matrix: entry (p, c) of the matrix is entry (p, 0) of the column. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Keepdims
-- ==== Proof.Payload.lean ====
/-
  What the node kernel stores, entry by entry.

  At row p and column q of a block the kernel stores
    act ((Σ_k (hs[p,k] + ra[p,k]) · Wn[k,q]) · norm[p] + (if mask[p] = 1 then Σ_k h[p,k] · Wl[k,q] else Σ_k h[p,k] · Wa[k,q])):
  three products into a zero accumulator, a column laid along the 128 lanes twice, two comparisons and two selections. On
  the extended reals the changes of float format are the identity, so nothing else is in it. Both launches run the same
  body; their printed texts cut it into payloads differently, hence the two statements.
-/
import proofs.«113642_j49624052138542_2_alg».proof.Proof.Gen.KernelIdeal.Skeleton
import proofs.«113642_j49624052138542_2_alg».proof.Proof.NodeSpec
import proofs.«113642_j49624052138542_2_alg».proof.Proof.LibKeepdims
import Idealize.ShloMosaic.Lib.ValueIdx
import Idealize.ShloMosaic.Lib.Pipeline.Value
import Idealize.ShloMosaic.PureOps.Ideal.Laws

noncomputable section

namespace Cert.KernelIdeal.Payload

open Cert.KernelIdeal Cert.KernelIdeal.Gen Idealize.ShloMosaic Idealize.ShloMosaic.ValueIdx Cert.NodeSpec

/-- The block product: row p of a 2000 × 128 block against column q of a 128 × 128 weight, into a zero accumulator, is
    the sum over the 128 contracted positions. -/
theorem matmul_at (a : FVec Ideal S2000x128 .bf16) (w : FVec Ideal S128x128 .bf16) (p : Fin 2000) (q : Fin 128) :
    matmul dot_S2000x128_S128x128_S2000x128_1_0_0_1_n_n none a w (constant (F := Ideal) S2000x128 .f32 0x00000000#32) (ix2 p q)
      = ∑ k : Fin 128, a (ix2 p k) * w (ix2 k q) := by
  simp only [matmul]
  rw [Ideal.matmul_constant_zero_apply,
    ← Equiv.sum_comp (ValueIdx.contrEquiv1 dot_S2000x128_S128x128_S2000x128_1_0_0_1_n_n 128 rfl rfl).symm]
  refine Finset.sum_congr rfl fun k _ => ?_
  have hk := ValueIdx.contrEquiv1_symm_val dot_S2000x128_S128x128_S2000x128_1_0_0_1_n_n 128 rfl rfl k
  have el : dot_S2000x128_S128x128_S2000x128_1_0_0_1_n_n.lhsIdx (ix2 p q)
      ((ValueIdx.contrEquiv1 dot_S2000x128_S128x128_S2000x128_1_0_0_1_n_n 128 rfl rfl).symm k) = ix2 p k :=
    funext fun ax => Fin.ext (by
      match ax with
      | ⟨0, _⟩ =>
        show (dot_S2000x128_S128x128_S2000x128_1_0_0_1_n_n.lhsIdx (ix2 p q) _ 0).val = p.val
        unfold DotDims.lhsIdx
        rw [dif_neg (show ¬(0 : Fin S2000x128.rank) ∈ dot_S2000x128_S128x128_S2000x128_1_0_0_1_n_n.lhsBatch by decide),
          dif_pos (show (0 : Fin S2000x128.rank) ∈ dot_S2000x128_S128x128_S2000x128_1_0_0_1_n_n.lhsNonContracting by decide)]
        rfl
      | ⟨1, _⟩ =>
        exact (dot_S2000x128_S128x128_S2000x128_1_0_0_1_n_n.lhsIdx_val_of_single rfl (ix2 p q) _).trans hk)
  have er : dot_S2000x128_S128x128_S2000x128_1_0_0_1_n_n.rhsIdx (ix2 p q)
      ((ValueIdx.contrEquiv1 dot_S2000x128_S128x128_S2000x128_1_0_0_1_n_n 128 rfl rfl).symm k) = ix2 k q :=
    funext fun ax => Fin.ext (by
      match ax with
      | ⟨0, _⟩ =>
        exact (dot_S2000x128_S128x128_S2000x128_1_0_0_1_n_n.rhsIdx_val_of_single rfl (ix2 p q) _).trans hk
      | ⟨1, _⟩ =>
        show (dot_S2000x128_S128x128_S2000x128_1_0_0_1_n_n.rhsIdx (ix2 p q) _ 1).val = q.val
        unfold DotDims.rhsIdx
        rw [dif_neg (show ¬(1 : Fin S128x128.rank) ∈ dot_S2000x128_S128x128_S2000x128_1_0_0_1_n_n.rhsBatch by decide),
          dif_pos (show (1 : Fin S128x128.rank) ∈ dot_S2000x128_S128x128_S2000x128_1_0_0_1_n_n.rhsNonContracting by decide)]
        rfl)
  rw [el, er]

/-- The entry the node kernel computes from the rows and columns it reads. -/
def entry (hs ra h : Vec Ideal S2000x128 .f32) (nrm mask : Vec Ideal S2000x1 .f32) (wn wl wa : Vec Ideal S128x128 .f32)
    (p : Fin 2000) (q : Fin 128) : EReal :=
  nodeOut (∑ k : Fin 128, (hs (ix2 p k) + ra (ix2 p k)) * wn (ix2 k q)) (nrm (ix2 p (0 : Fin 1)))
    (Ideal.cmp .oeq (mask (ix2 p (0 : Fin 1))) (Ideal.ofBits .f32 0x3F800000#32))
    (∑ k : Fin 128, h (ix2 p k) * wl (ix2 k q)) (∑ k : Fin 128, h (ix2 p k) * wa (ix2 k q))

/-- The first launch's stored value at (p, q). -/
theorem pay0_apply (x3 : Vec Ideal S2000x128 .f32) (x5 x6 x7 : Vec Ideal S128x128 .f32) (x0 x1 : Vec Ideal S2000x128 .f32)
    (x2 x4 : Vec Ideal S2000x1 .f32) (p : Fin 2000) (q : Fin 128) :
    k0_pay1 (F := Ideal) x3 x5 x6 x7 x0 x1 x2 x4 (ix2 p q) = entry x0 x1 x3 x2 x4 x5 x6 x7 p q := by
  unfold k0_pay1 entry nodeOut act
  simp only [select_apply, cmpf_apply, mulf_apply, addf_apply, broadcast_apply, matmul_at, truncf_apply,
    shapeCast_self, Cert.Keepdims.broadcastTo_a1_ab_apply, Ideal.cmpf_def, Scalar.ofBits, Ideal.ofBits_def]

/-- The second launch's stored value at (p, q). -/
theorem pay1_apply (x3 : Vec Ideal S2000x128 .f32) (x5 x6 x7 : Vec Ideal S128x128 .f32) (x0 x1 : Vec Ideal S2000x128 .f32)
    (x2 x4 : Vec Ideal S2000x1 .f32) (p : Fin 2000) (q : Fin 128) :
    k1_pay1 (F := Ideal) (k1_pay2 x3 x5 x6 x7 x0 x1 x2 x4) (k1_pay3 x3 x5 x6 x7 x0 x1 x2 x4) (k1_pay4 x3 x5 x6 x7 x0 x1 x2 x4) (ix2 p q)
      = entry x0 x1 x3 x2 x4 x5 x6 x7 p q := by
  unfold k1_pay1 k1_pay3 k1_pay4 k1_pay2 entry nodeOut act
  simp only [select_apply, cmpf_apply, mulf_apply, addf_apply, broadcast_apply, matmul_at, truncf_apply,
    shapeCast_self, Cert.Keepdims.broadcastTo_a1_ab_apply, Ideal.cmpf_def, Scalar.ofBits, Ideal.ofBits_def]

/-- The first launch's stored value at any block index. -/
theorem pay0_at (x3 : Vec Ideal S2000x128 .f32) (x5 x6 x7 : Vec Ideal S128x128 .f32) (x0 x1 : Vec Ideal S2000x128 .f32)
    (x2 x4 : Vec Ideal S2000x1 .f32) (j : S2000x128.Idx) :
    k0_pay1 (F := Ideal) x3 x5 x6 x7 x0 x1 x2 x4 j = entry x0 x1 x3 x2 x4 x5 x6 x7 (j 0) (j 1) := by
  obtain ⟨p, q, rfl⟩ : ∃ (p : Fin 2000) (q : Fin 128), j = ix2 p q := ⟨j 0, j 1, eq_ix2 j⟩
  exact pay0_apply x3 x5 x6 x7 x0 x1 x2 x4 p q

/-- The second launch's stored value at any block index. -/
theorem pay1_at (x3 : Vec Ideal S2000x128 .f32) (x5 x6 x7 : Vec Ideal S128x128 .f32) (x0 x1 : Vec Ideal S2000x128 .f32)
    (x2 x4 : Vec Ideal S2000x1 .f32) (j : S2000x128.Idx) :
    k1_pay1 (F := Ideal) (k1_pay2 x3 x5 x6 x7 x0 x1 x2 x4) (k1_pay3 x3 x5 x6 x7 x0 x1 x2 x4) (k1_pay4 x3 x5 x6 x7 x0 x1 x2 x4) j
      = entry x0 x1 x3 x2 x4 x5 x6 x7 (j 0) (j 1) := by
  obtain ⟨p, q, rfl⟩ : ∃ (p : Fin 2000) (q : Fin 128), j = ix2 p q := ⟨j 0, j 1, eq_ix2 j⟩
  exact pay1_apply x3 x5 x6 x7 x0 x1 x2 x4 p q

end Cert.KernelIdeal.Payload

end
-- ==== Proof.LibRowScatter.lean ====
/-
  A scatter-add of row updates, read at an element.

  Adding `R` update rows `[R, C]` into a two-dimensional operand `[N, C]` at a column of `R` row indices (`[R, 1]`)
  is the scatter with update window axis 1, inserted window axis 0, the map [0] from index components to operand axes
  and the index vector on axis 1: update element `(e, c')` lands at operand element `(idx[e, 0], c')`, the row index
  read as a signed integer and NOT clamped; an update whose row index is outside `[0, N)` is dropped.
-/
import Idealize.ShloMosaic.Lib.ValueIdx
import Idealize.ShloMosaic.PureOps.Ideal

namespace Cert.LibRowScatter

open Idealize.ShloMosaic Idealize.ShloMosaic.ValueIdx
open scoped BigOperators

/-- The dimension numbers of the row scatter, for an operand `[N, C]`, scatter indices `[R, 1]` and updates `[R, C]`;
    their conditions `wf` are decided on a program's literal shapes. -/
abbrev rowDims (N R C : Nat) (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

section
variable {N R C w : Nat} (wf : ScatterDims.WF ⟨2, ![N, C]⟩ ⟨2, ![R, 1]⟩ ⟨2, ![R, C]⟩ [1] [0] [0] 1)
  (idx : IVec ⟨2, ![R, 1]⟩ w) (e : Fin R) (c' : Fin C)

/-- On the row axis the window of update `(e, c')` starts at the row index `idx[e, 0]`, read signed. -/
theorem start_row : (rowDims N R C wf).start (ix2 e c') idx 0 = (idx (ix2 e (0 : Fin 1))).toInt := by
  unfold ScatterDims.start
  rw [dif_pos (show (0 : Fin 2) ∈ (rowDims N R C wf).scatterDimsToOperandDims from List.mem_singleton.mpr rfl)]
  have hsi : (rowDims N R C wf).siIdx (ix2 e c') ⟨List.idxOf (0 : Fin 2) (rowDims N R C wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the column axis the window starts at 0: no index component goes to it. -/
theorem start_col : (rowDims N R C wf).start (ix2 e c') idx 1 = 0 := by
  unfold ScatterDims.start
  rw [dif_neg (show (1 : Fin 2) ∉ [(0 : Fin 2)] by decide)]

/-- The row axis is an inserted window axis: the window coordinate on it is 0. -/
theorem window_row : (rowDims N R C wf).window (ix2 e c') 0 = 0 := by
  have hk : (rowDims N R C wf).sKept = [(1 : Fin 2)] := rfl
  unfold ScatterDims.window
  rw [dif_neg (show (0 : Fin 2) ∉ (rowDims N R C wf).sKept by
    rw [hk]; exact fun h => absurd (List.mem_singleton.mp h) (by decide : (0 : Fin 2) ≠ 1))]

/-- The window coordinate on the column axis is the update's column. -/
theorem window_col : (rowDims N R C wf).window (ix2 e c') 1 = c'.val := by
  have hk : (rowDims N R C wf).sKept = [(1 : Fin 2)] := rfl
  unfold ScatterDims.window
  rw [dif_pos (show (1 : Fin 2) ∈ (rowDims N R C wf).sKept by rw [hk]; exact List.mem_singleton.mpr rfl)]
  rfl

/-- WHERE AN UPDATE LANDS. Update element `(e, c')` lands on operand element `(n, c)` exactly when its row index
    `idx[e, 0]`, read as a signed integer, is `n` and its column `c'` is `c`: the row index is not clamped, so an index
    that is negative or at least `N` lands on no element (the update is dropped). -/
theorem resultIdx_row (n : Fin N) (c : Fin C) :
    (rowDims N R C wf).resultIdx? (ix2 e c') idx = some (ix2 n c)
      ↔ (idx (ix2 e (0 : Fin 1))).toInt = (n.val : Int) ∧ c' = c := by
  have hs0 := start_row wf idx e c'
  have hs1 := start_col wf idx e c'
  have hw0 := window_row wf e c'
  have hw1 := window_col wf e c'
  have hn := n.isLt
  have hc' := c'.isLt
  unfold ScatterDims.resultIdx?
  split
  · next h =>
    constructor
    · intro hf
      have hf' := Option.some.inj hf
      have h0 : ((rowDims N R C wf).start (ix2 e c') idx 0 + ((rowDims N R C wf).window (ix2 e c') 0 : Nat)).toNat = n.val :=
        congrArg Fin.val (congrFun hf' 0)
      have h1 : ((rowDims N R C wf).start (ix2 e c') idx 1 + ((rowDims N R C wf).window (ix2 e c') 1 : Nat)).toNat = c.val :=
        congrArg Fin.val (congrFun hf' 1)
      have g0 := (h 0).1
      rw [hs0, hw0] at h0 g0
      rw [hs1, hw1] at h1
      exact ⟨by omega, Fin.ext (by omega)⟩
    · rintro ⟨ht, rfl⟩
      congr 1
      funext a
      refine Fin.ext ?_
      match a with
      | ⟨0, _⟩ =>
        show ((rowDims N R C wf).start (ix2 e c') idx 0 + ((rowDims N R C wf).window (ix2 e c') 0 : Nat)).toNat = n.val
        rw [hs0, hw0, ht]; omega
      | ⟨1, _⟩ =>
        show ((rowDims N R C wf).start (ix2 e c') idx 1 + ((rowDims N R C wf).window (ix2 e c') 1 : Nat)).toNat = c'.val
        rw [hs1, hw1]; omega
  · next h =>
    constructor
    · intro hf; exact absurd hf (by simp)
    · rintro ⟨ht, rfl⟩
      exfalso; apply h
      intro a
      match a with
      | ⟨0, _⟩ =>
        show 0 ≤ (rowDims N R C wf).start (ix2 e c') idx 0 + ((rowDims N R C wf).window (ix2 e c') 0 : Nat)
          ∧ (rowDims N R C wf).start (ix2 e c') idx 0 + ((rowDims N R C wf).window (ix2 e c') 0 : Nat) < (N : Int)
        rw [hs0, hw0, ht]; omega
      | ⟨1, _⟩ =>
        show 0 ≤ (rowDims N R C wf).start (ix2 e c') idx 1 + ((rowDims N R C wf).window (ix2 e c') 1 : Nat)
          ∧ (rowDims N R C wf).start (ix2 e c') idx 1 + ((rowDims N R C wf).window (ix2 e c') 1 : Nat) < (C : Int)
        rw [hs1, hw1]; omega

end

/-- THE ROW SCATTER-ADD READ AT `(n, c)`: the operand's element plus the sum, over the update rows `e` whose row index
    `idx[e, 0]` (read signed, not clamped) is `n`, of that row's element in column `c`. Which rows `e` contribute depends
    on the indices and on `n` only, not on the column or on the updates; an update row whose index is outside `[0, N)`
    contributes to no element. -/
theorem scatterAdd_row_apply {N R C w : Nat}
    (wf : ScatterDims.WF ⟨2, ![N, C]⟩ ⟨2, ![R, 1]⟩ ⟨2, ![R, C]⟩ [1] [0] [0] 1)
    (x : (⟨2, ![N, C]⟩ : Shape).Idx → EReal) (idx : IVec ⟨2, ![R, 1]⟩ w) (upd : (⟨2, ![R, C]⟩ : Shape).Idx → EReal)
    (n : Fin N) (c : Fin C) :
    Ideal.hostScatterAdd (rowDims N R C wf) x idx upd (ix2 n c)
      = x (ix2 n c) + ∑ e : Fin R, if (idx (ix2 e (0 : Fin 1))).toInt = (n.val : Int) then upd (ix2 e c) else 0 := by
  unfold Ideal.hostScatterAdd
  congr 1
  rw [Finset.sum_filter, sum_idx2]
  refine Finset.sum_congr rfl (fun e _ => ?_)
  simp only [resultIdx_row]
  by_cases ht : (idx (ix2 e (0 : Fin 1))).toInt = (n.val : Int)
  · simp only [ht, true_and, if_true]
    rw [Finset.sum_ite_eq']
    simp
  · simp [ht]

end Cert.LibRowScatter
-- ==== Proof.Layer.lean ====
/-
  One layer of the node update as a function of whole arrays, and the bridge between its two arrangements.

  `layer` is what a launch of the node kernel leaves: entry (n, j) from row n of two aggregates hs and ra, of the features h,
  of the norm and mask columns, and column j of three weights. When the two aggregates are scatter-sums over the same edge
  list — hs[n, k] = Σ_{e : dst e = n} a[e, k], ra likewise of b — the kernel's  Σ_k (hs[n,k] + ra[n,k]) · Wn[k,j]  is the
  reference's scatter-sum of the edge messages  Σ_{e : dst e = n} Σ_k (a[e,k] + b[e,k]) · Wn[k,j]  (the exchange law, every
  entry a real), the mask column holds the in-degree bit as 0 or 1 and is compared with 1, and the rest is the same text.
-/
import proofs.«113642_j49624052138542_2_alg».proof.Proof.NodeSpec
import proofs.«113642_j49624052138542_2_alg».proof.Proof.LibRowScatter
import Idealize.ShloMosaic.Lib.ValueIdx

noncomputable section

namespace Cert.Layer

open Idealize.ShloMosaic Idealize.ShloMosaic.ValueIdx Cert.NodeSpec

/-- Entry (n, j) of one layer from rows and columns of whole arrays. -/
def layer (hs ra : (⟨2, ![50000, 128]⟩ : Shape).Idx → EReal) (nrm : (⟨2, ![50000, 1]⟩ : Shape).Idx → EReal)
    (h : (⟨2, ![50000, 128]⟩ : Shape).Idx → EReal) (mask : (⟨2, ![50000, 1]⟩ : Shape).Idx → EReal)
    (wn wl wa : (⟨2, ![128, 128]⟩ : Shape).Idx → EReal) : (⟨2, ![50000, 128]⟩ : Shape).Idx → EReal := fun i =>
  nodeOut (∑ k : Fin 128, (hs (ix2 (i 0) k) + ra (ix2 (i 0) k)) * wn (ix2 k (i 1))) (nrm (ix2 (i 0) (0 : Fin 1)))
    (Ideal.cmp .oeq (mask (ix2 (i 0) (0 : Fin 1))) (Ideal.ofBits .f32 0x3F800000#32))
    (∑ k : Fin 128, h (ix2 (i 0) k) * wl (ix2 k (i 1))) (∑ k : Fin 128, h (ix2 (i 0) k) * wa (ix2 k (i 1)))

theorem layer_apply (hs ra : (⟨2, ![50000, 128]⟩ : Shape).Idx → EReal) (nrm : (⟨2, ![50000, 1]⟩ : Shape).Idx → EReal)
    (h : (⟨2, ![50000, 128]⟩ : Shape).Idx → EReal) (mask : (⟨2, ![50000, 1]⟩ : Shape).Idx → EReal)
    (wn wl wa : (⟨2, ![128, 128]⟩ : Shape).Idx → EReal) (n : Fin 50000) (j : Fin 128) :
    layer hs ra nrm h mask wn wl wa (ix2 n j)
      = nodeOut (∑ k : Fin 128, (hs (ix2 n k) + ra (ix2 n k)) * wn (ix2 k j)) (nrm (ix2 n (0 : Fin 1)))
          (Ideal.cmp .oeq (mask (ix2 n (0 : Fin 1))) (Ideal.ofBits .f32 0x3F800000#32))
          (∑ k : Fin 128, h (ix2 n k) * wl (ix2 k j)) (∑ k : Fin 128, h (ix2 n k) * wa (ix2 k j)) := rfl

/-- THE BRIDGE at entry (n, j). `z` is the zero array both scatter-sums start from, `idx` the column of destination
    nodes, `a` and `b` the gathered rows, `pos` the in-degree bits, `mask` their reading as 0 / 1. -/
theorem bridge (wf : ScatterDims.WF ⟨2, ![50000, 128]⟩ ⟨2, ![500000, 1]⟩ ⟨2, ![500000, 128]⟩ [1] [0] [0] 1)
    (z : (⟨2, ![50000, 128]⟩ : Shape).Idx → EReal) (hz : ∀ i, z i = 0) (idx : IVec ⟨2, ![500000, 1]⟩ 32)
    (a b : (⟨2, ![500000, 128]⟩ : Shape).Idx → EReal) (ha : ∀ i, IsReal (a i)) (hb : ∀ i, IsReal (b i))
    (nrm : (⟨2, ![50000, 1]⟩ : Shape).Idx → EReal) (h : (⟨2, ![50000, 128]⟩ : Shape).Idx → EReal)
    (pos : IVec ⟨1, ![50000]⟩ 1) (mask : (⟨2, ![50000, 1]⟩ : Shape).Idx → EReal)
    (hm : ∀ n : Fin 50000, mask (ix2 n (0 : Fin 1)) = (((pos (ix1 n)).toNat : ℝ) : EReal))
    (wn wl wa : (⟨2, ![128, 128]⟩ : Shape).Idx → EReal) (hwn : ∀ i, IsReal (wn i)) (n : Fin 50000) (j : Fin 128) :
    layer (Ideal.hostScatterAdd (LibRowScatter.rowDims 50000 500000 128 wf) z idx a)
        (Ideal.hostScatterAdd (LibRowScatter.rowDims 50000 500000 128 wf) z idx b) nrm h mask wn wl wa (ix2 n j)
      = nodeOut (Ideal.hostScatterAdd (LibRowScatter.rowDims 50000 500000 128 wf) z idx
            (fun e => ∑ k : Fin 128, (a (ix2 (e 0) k) + b (ix2 (e 0) k)) * wn (ix2 k (e 1))) (ix2 n j))
          (nrm (ix2 n (0 : Fin 1))) (pos (ix1 n))
          (∑ k : Fin 128, h (ix2 n k) * wl (ix2 k j)) (∑ k : Fin 128, h (ix2 n k) * wa (ix2 k j)) := by
  rw [layer_apply, hm n, cmp_oeq_bit]
  simp only [LibRowScatter.scatterAdd_row_apply, hz]
  refine congrArg (fun s => nodeOut s (nrm (ix2 n (0 : Fin 1))) (pos (ix1 n))
    (∑ k : Fin 128, h (ix2 n k) * wl (ix2 k j)) (∑ k : Fin 128, h (ix2 n k) * wa (ix2 k j))) ?_
  exact exchange (fun e : Fin 500000 => (idx (ix2 e (0 : Fin 1))).toInt = (n.val : Int))
    (fun e k => a (ix2 e k)) (fun e k => b (ix2 e k)) (fun k => wn (ix2 k j))
    (fun e k => ha _) (fun e k => hb _) (fun k => hwn _)

/-- A scatter-sum of real entries into a real array is real, entry by entry. -/
theorem scatter_real (wf : ScatterDims.WF ⟨2, ![50000, 128]⟩ ⟨2, ![500000, 1]⟩ ⟨2, ![500000, 128]⟩ [1] [0] [0] 1)
    (z : (⟨2, ![50000, 128]⟩ : Shape).Idx → EReal) (hz : ∀ i, z i = 0) (idx : IVec ⟨2, ![500000, 1]⟩ 32)
    (a : (⟨2, ![500000, 128]⟩ : Shape).Idx → EReal) (ha : ∀ i, IsReal (a i)) (i : (⟨2, ![50000, 128]⟩ : Shape).Idx) :
    IsReal (Ideal.hostScatterAdd (LibRowScatter.rowDims 50000 500000 128 wf) z idx a i) := by
  obtain ⟨n, j, rfl⟩ : ∃ (n : Fin 50000) (j : Fin 128), i = ix2 n j := ⟨i 0, i 1, eq_ix2 i⟩
  rw [LibRowScatter.scatterAdd_row_apply, hz]
  exact IsReal.zero.add (IsReal.sum _ _ fun e _ => IsReal.ite (ha _) IsReal.zero)

/-- A layer of real arrays is a real array. -/
theorem layer_real (hs ra : (⟨2, ![50000, 128]⟩ : Shape).Idx → EReal) (nrm : (⟨2, ![50000, 1]⟩ : Shape).Idx → EReal)
    (h : (⟨2, ![50000, 128]⟩ : Shape).Idx → EReal) (mask : (⟨2, ![50000, 1]⟩ : Shape).Idx → EReal)
    (wn wl wa : (⟨2, ![128, 128]⟩ : Shape).Idx → EReal)
    (h1 : ∀ i, IsReal (hs i)) (h2 : ∀ i, IsReal (ra i)) (h3 : ∀ i, IsReal (nrm i)) (h4 : ∀ i, IsReal (h i))
    (h5 : ∀ i, IsReal (wn i)) (h6 : ∀ i, IsReal (wl i)) (h7 : ∀ i, IsReal (wa i)) (i : (⟨2, ![50000, 128]⟩ : Shape).Idx) :
    IsReal (layer hs ra nrm h mask wn wl wa i) := by
  unfold layer
  exact nodeOut_real _ (IsReal.sum _ _ fun k _ => ((h1 _).add (h2 _)).mul (h5 _)) (h3 _)
    (IsReal.sum _ _ fun k _ => (h4 _).mul (h6 _)) (IsReal.sum _ _ fun k _ => (h4 _).mul (h7 _))

end Cert.Layer

end
-- ==== Proof.Blocks.lean ====
/-
  From blocks to arrays: what each launch of the node kernel leaves in its output array.

  The output is cut into 25 blocks of 2000 rows; at grid point t the kernel reads row block t of the two aggregates, of the
  norms, of the node features and of the mask, and the three 128 × 128 weights whole, and writes row block t of the output.
  Entry (n, j) of the output therefore depends on row n of the row-blocked inputs and column j of the weights only, and the
  array the launch leaves is ONE function of the arrays it found: `Cert.Layer.layer`. The 25 blocks tile the 50000 rows.
-/
import proofs.«113642_j49624052138542_2_alg».proof.Proof.FrameKIP
import proofs.«113642_j49624052138542_2_alg».proof.Proof.Payload
import proofs.«113642_j49624052138542_2_alg».proof.Proof.Layer

set_option maxRecDepth 16384

noncomputable section

namespace Cert.KernelIdeal.Blocks

open Cert.KernelIdeal Cert.KernelIdeal.Gen Cert.KernelIdeal.GenP
open Idealize.ShloMosaic Idealize.ShloMosaic.TcCoe Idealize.ShloMosaic.ValueIdx Idealize.SL.Sem Cert.NodeSpec Cert.Layer
open Idealize.ShloMosaic.Pipeline (Dat Cfg Window)

/-- A block entry is the layer function's entry once every block read is the array's read at the matching row or column. -/
theorem entry_eq_layer (x0 x1 x3 : Vec Ideal S2000x128 .f32) (x2 x4 : Vec Ideal S2000x1 .f32) (x5 x6 x7 : Vec Ideal S128x128 .f32)
    (hs ra : S50000x128.Idx → EReal) (nrm : S50000x1.Idx → EReal) (h : S50000x128.Idx → EReal) (mask : S50000x1.Idx → EReal)
    (wn wl wa : S128x128.Idx → EReal) (p : Fin 2000) (q : Fin 128) (i : S50000x128.Idx)
    (h0 : ∀ k : Fin 128, x0 (ix2 p k) = hs (ix2 (i 0) k)) (h1 : ∀ k : Fin 128, x1 (ix2 p k) = ra (ix2 (i 0) k))
    (h3 : ∀ k : Fin 128, x3 (ix2 p k) = h (ix2 (i 0) k))
    (h2 : x2 (ix2 p (0 : Fin 1)) = nrm (ix2 (i 0) (0 : Fin 1))) (h4 : x4 (ix2 p (0 : Fin 1)) = mask (ix2 (i 0) (0 : Fin 1)))
    (h5 : ∀ k : Fin 128, x5 (ix2 k q) = wn (ix2 k (i 1))) (h6 : ∀ k : Fin 128, x6 (ix2 k q) = wl (ix2 k (i 1)))
    (h7 : ∀ k : Fin 128, x7 (ix2 k q) = wa (ix2 k (i 1))) :
    Payload.entry x0 x1 x3 x2 x4 x5 x6 x7 p q = layer hs ra nrm h mask wn wl wa i := by
  unfold Payload.entry layer
  simp only [h0, h1, h2, h3, h4, h5, h6, h7]

theorem hz : (![0, 0] : Fin 2 → Nat) = fun _ => 0 := funext fun a => by fin_cases a <;> rfl

variable (V : (c : Dev nD) → (b : Ref sig .tc) → Buf (Elt Ideal) ((c : Thread nD τ).loc b))

/-! ## Launch 0 -/

/-- The printed index maps of launch 0, decided once over its 25 grid points: the five row-blocked inputs move with the
    output's row block and sit at column block 0, the three weights sit at block (0, 0), and the output's row block at
    point t is t. -/
theorem idx_facts0 : ∀ t : Fin cfg0.N,
    win0_0.index t (0 : Fin 2) = win0_8.index t (0 : Fin 2) ∧ win0_0.index t (1 : Fin 2) = 0
    ∧ win0_1.index t (0 : Fin 2) = win0_8.index t (0 : Fin 2) ∧ win0_1.index t (1 : Fin 2) = 0
    ∧ win0_2.index t (0 : Fin 2) = win0_8.index t (0 : Fin 2) ∧ win0_2.index t (1 : Fin 2) = 0
    ∧ win0_3.index t (0 : Fin 2) = win0_8.index t (0 : Fin 2) ∧ win0_3.index t (1 : Fin 2) = 0
    ∧ win0_4.index t (0 : Fin 2) = win0_8.index t (0 : Fin 2) ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = t.val ∧ win0_8.index t (1 : Fin 2) = 0 :=
  (by decide +kernel : ∀ t : Fin grid0.N, _)

set_option maxHeartbeats 4000000 in
/-- WHAT POINT t WRITES BACK is block t of the layer function of the arrays the region finds. -/
theorem flushed0 (c : Dev nD) (t : Fin cfg0.N) :
    (dat0 (F := Ideal) V c).flushed 8 t = ((cfg0.win 8).blk t).view.read (Elt Ideal)
      (layer (V c main_v27) (V c main_v17) (V c main_arg2) (V c main_arg0) (V c main_v7) (V c main_v29) (V c main_v31) (V c main_v33)) := by
  show (cfg0.win 8).cut (grid0.coords t) ((dat0 V c).after 8 t) = _
  rw [after0_8]
  unfold out0_8
  rw [View.canon_unit_zero hz]
  simp only [View.ld_unit_zero (S := S2000x128) hz, View.ld_unit_zero (S := S128x128) hz, View.ld_unit_zero (S := S2000x1) hz]
  obtain ⟨e00, e01, e10, e11, e20, e21, e30, e31, e40, e41, e50, e51, e60, e61, e70, e71, e80, e81⟩ := idx_facts0 t
  funext j
  refine (Payload.pay0_at (iblk0 V c 3 t) (iblk0 V c 5 t) (iblk0 V c 6 t) (iblk0 V c 7 t) (iblk0 V c 0 t) (iblk0 V c 1 t)
    (iblk0 V c 2 t) (iblk0 V c 4 t) j).trans ?_
  refine entry_eq_layer (iblk0 V c 0 t) (iblk0 V c 1 t) (iblk0 V c 3 t) (iblk0 V c 2 t) (iblk0 V c 4 t) (iblk0 V c 5 t)
    (iblk0 V c 6 t) (iblk0 V c 7 t) (V c main_v27) (V c main_v17) (V c main_arg2) (V c main_arg0) (V c main_v7) (V c main_v29)
    (V c main_v31) (V c main_v33) (j 0) (j 1) (((cfg0.win 8).blk t).view.emb j) ?_ ?_ ?_ ?_ ?_ ?_ ?_ ?_
  · intro k
    show V c main_v27 (((cfg0.win 0).blk t).view.emb (ix2 (j 0) k)) = V c main_v27 (ix2 ((((cfg0.win 8).blk t).view.emb j) 0) k)
    refine congrArg (V c main_v27) (funext fun a => Fin.ext ?_)
    match a with
    | ⟨0, _⟩ => show win0_0.index t (0 : Fin 2) * 2000 + 1 * (j 0).val = win0_8.index t (0 : Fin 2) * 2000 + 1 * (j 0).val; omega
    | ⟨1, _⟩ => show win0_0.index t (1 : Fin 2) * 128 + 1 * k.val = k.val; omega
  · intro k
    show V c main_v17 (((cfg0.win 1).blk t).view.emb (ix2 (j 0) k)) = V c main_v17 (ix2 ((((cfg0.win 8).blk t).view.emb j) 0) k)
    refine congrArg (V c main_v17) (funext fun a => Fin.ext ?_)
    match a with
    | ⟨0, _⟩ => show win0_1.index t (0 : Fin 2) * 2000 + 1 * (j 0).val = win0_8.index t (0 : Fin 2) * 2000 + 1 * (j 0).val; omega
    | ⟨1, _⟩ => show win0_1.index t (1 : Fin 2) * 128 + 1 * k.val = k.val; omega
  · intro k
    show V c main_arg0 (((cfg0.win 3).blk t).view.emb (ix2 (j 0) k)) = V c main_arg0 (ix2 ((((cfg0.win 8).blk t).view.emb j) 0) k)
    refine congrArg (V c main_arg0) (funext fun a => Fin.ext ?_)
    match a with
    | ⟨0, _⟩ => show win0_3.index t (0 : Fin 2) * 2000 + 1 * (j 0).val = win0_8.index t (0 : Fin 2) * 2000 + 1 * (j 0).val; omega
    | ⟨1, _⟩ => show win0_3.index t (1 : Fin 2) * 128 + 1 * k.val = k.val; omega
  · show V c main_arg2 (((cfg0.win 2).blk t).view.emb (ix2 (j 0) (0 : Fin 1))) = V c main_arg2 (ix2 ((((cfg0.win 8).blk t).view.emb j) 0) (0 : Fin 1))
    refine congrArg (V c main_arg2) (funext fun a => Fin.ext ?_)
    match a with
    | ⟨0, _⟩ => show win0_2.index t (0 : Fin 2) * 2000 + 1 * (j 0).val = win0_8.index t (0 : Fin 2) * 2000 + 1 * (j 0).val; omega
    | ⟨1, _⟩ => show win0_2.index t (1 : Fin 2) * 1 + 1 * 0 = 0; omega
  · show V c main_v7 (((cfg0.win 4).blk t).view.emb (ix2 (j 0) (0 : Fin 1))) = V c main_v7 (ix2 ((((cfg0.win 8).blk t).view.emb j) 0) (0 : Fin 1))
    refine congrArg (V c main_v7) (funext fun a => Fin.ext ?_)
    match a with
    | ⟨0, _⟩ => show win0_4.index t (0 : Fin 2) * 2000 + 1 * (j 0).val = win0_8.index t (0 : Fin 2) * 2000 + 1 * (j 0).val; omega
    | ⟨1, _⟩ => show win0_4.index t (1 : Fin 2) * 1 + 1 * 0 = 0; omega
  · intro k
    show V c main_v29 (((cfg0.win 5).blk t).view.emb (ix2 k (j 1))) = V c main_v29 (ix2 k ((((cfg0.win 8).blk t).view.emb j) 1))
    refine congrArg (V c main_v29) (funext fun a => Fin.ext ?_)
    match a with
    | ⟨0, _⟩ => show win0_5.index t (0 : Fin 2) * 128 + 1 * k.val = k.val; omega
    | ⟨1, _⟩ => show win0_5.index t (1 : Fin 2) * 128 + 1 * (j 1).val = win0_8.index t (1 : Fin 2) * 128 + 1 * (j 1).val; omega
  · intro k
    show V c main_v31 (((cfg0.win 6).blk t).view.emb (ix2 k (j 1))) = V c main_v31 (ix2 k ((((cfg0.win 8).blk t).view.emb j) 1))
    refine congrArg (V c main_v31) (funext fun a => Fin.ext ?_)
    match a with
    | ⟨0, _⟩ => show win0_6.index t (0 : Fin 2) * 128 + 1 * k.val = k.val; omega
    | ⟨1, _⟩ => show win0_6.index t (1 : Fin 2) * 128 + 1 * (j 1).val = win0_8.index t (1 : Fin 2) * 128 + 1 * (j 1).val; omega
  · intro k
    show V c main_v33 (((cfg0.win 7).blk t).view.emb (ix2 k (j 1))) = V c main_v33 (ix2 k ((((cfg0.win 8).blk t).view.emb j) 1))
    refine congrArg (V c main_v33) (funext fun a => Fin.ext ?_)
    match a with
    | ⟨0, _⟩ => show win0_7.index t (0 : Fin 2) * 128 + 1 * k.val = k.val; omega
    | ⟨1, _⟩ => show win0_7.index t (1 : Fin 2) * 128 + 1 * (j 1).val = win0_8.index t (1 : Fin 2) * 128 + 1 * (j 1).val; omega

/-- An index of the output array is in point t's block iff each coordinate is in the block's range on its axis. -/
theorem mem_blk0 (t : Fin cfg0.N) (i : S50000x128.Idx) :
    i ∈ ((cfg0.win 8).blk t).view.set ↔ ∀ a : Fin 2, win0_8.index t a * S2000x128.size a ≤ (i a).val
      ∧ (i a).val < win0_8.index t a * S2000x128.size a + S2000x128.size a := by
  show i ∈ ((View.whole main_v34).slice (win0_8.rect t)).set ↔ _
  rw [View.set_slice_whole, Rect.mem_set_unit]
  exact Iff.rfl

/-- The 25 row blocks of 2000 rows tile the 50000 rows: row r lies in the block of point r / 2000. -/
theorem cover0 (i : S50000x128.Idx) :
    ∃ t : Fin cfg0.N, (cfg0.win 8).flush t = true ∧ i ∈ ((cfg0.win 8).blk t).view.set := by
  have hN : cfg0.N = 25 := N_0
  have hi0 : (i 0).val < 50000 := (i 0).isLt
  have hi1 : (i 1).val < 128 := (i 1).isLt
  have ht : (i 0).val / 2000 < cfg0.N := by rw [hN]; omega
  refine ⟨⟨(i 0).val / 2000, ht⟩, flush0_8 _, ?_⟩
  rw [mem_blk0]
  obtain ⟨-, -, -, -, -, -, -, -, -, -, -, -, -, -, -, -, e80, e81⟩ := idx_facts0 ⟨(i 0).val / 2000, ht⟩
  have e80' : win0_8.index ⟨(i 0).val / 2000, ht⟩ (0 : Fin 2) = (i 0).val / 2000 := e80
  intro a
  match a with
  | ⟨0, _⟩ =>
    show win0_8.index ⟨(i 0).val / 2000, ht⟩ (0 : Fin 2) * 2000 ≤ (i 0).val
      ∧ (i 0).val < win0_8.index ⟨(i 0).val / 2000, ht⟩ (0 : Fin 2) * 2000 + 2000
    rw [e80']; omega
  | ⟨1, _⟩ =>
    show win0_8.index ⟨(i 0).val / 2000, ht⟩ (1 : Fin 2) * 128 ≤ (i 1).val
      ∧ (i 1).val < win0_8.index ⟨(i 0).val / 2000, ht⟩ (1 : Fin 2) * 128 + 128
    rw [e81]; omega

/-- THE ARRAY launch 0 leaves: the layer function of the arrays it found, whole. -/
theorem arr0 (c : Dev nD) :
    (dat0 (F := Ideal) V c).arrAt 8 cfg0.N
      = layer (V c main_v27) (V c main_v17) (V c main_arg2) (V c main_arg0) (V c main_v7) (V c main_v29) (V c main_v31) (V c main_v33) :=
  (dat0 (F := Ideal) V c).arrAt_eq_of_cover 8 _ (fun t _ => flushed0 V c t) (cover0)

/-! ## Launch 1 -/

/-- The printed index maps of launch 1, decided once over its 25 grid points: the five row-blocked inputs move with the
    output's row block and sit at column block 0, the three weights sit at block (0, 0), and the output's row block at
    point t is t. -/
theorem idx_facts1 : ∀ t : Fin cfg1.N,
    win1_0.index t (0 : Fin 2) = win1_8.index t (0 : Fin 2) ∧ win1_0.index t (1 : Fin 2) = 0
    ∧ win1_1.index t (0 : Fin 2) = win1_8.index t (0 : Fin 2) ∧ win1_1.index t (1 : Fin 2) = 0
    ∧ win1_2.index t (0 : Fin 2) = win1_8.index t (0 : Fin 2) ∧ win1_2.index t (1 : Fin 2) = 0
    ∧ win1_3.index t (0 : Fin 2) = win1_8.index t (0 : Fin 2) ∧ win1_3.index t (1 : Fin 2) = 0
    ∧ win1_4.index t (0 : Fin 2) = win1_8.index t (0 : Fin 2) ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = t.val ∧ win1_8.index t (1 : Fin 2) = 0 :=
  (by decide +kernel : ∀ t : Fin grid1.N, _)

set_option maxHeartbeats 4000000 in
/-- WHAT POINT t WRITES BACK is block t of the layer function of the arrays the region finds. -/
theorem flushed1 (c : Dev nD) (t : Fin cfg1.N) :
    (dat1 (F := Ideal) V c).flushed 8 t = ((cfg1.win 8).blk t).view.read (Elt Ideal)
      (layer (V c main_v44) (V c main_v17) (V c main_arg2) (V c main_v34) (V c main_v7) (V c main_v46) (V c main_v48) (V c main_v50)) := by
  show (cfg1.win 8).cut (grid1.coords t) ((dat1 V c).after 8 t) = _
  rw [after1_8]
  unfold out1_8
  rw [View.canon_unit_zero hz]
  simp only [View.ld_unit_zero (S := S2000x128) hz, View.ld_unit_zero (S := S128x128) hz, View.ld_unit_zero (S := S2000x1) hz]
  obtain ⟨e00, e01, e10, e11, e20, e21, e30, e31, e40, e41, e50, e51, e60, e61, e70, e71, e80, e81⟩ := idx_facts1 t
  funext j
  refine (Payload.pay1_at (iblk1 V c 3 t) (iblk1 V c 5 t) (iblk1 V c 6 t) (iblk1 V c 7 t) (iblk1 V c 0 t) (iblk1 V c 1 t)
    (iblk1 V c 2 t) (iblk1 V c 4 t) j).trans ?_
  refine entry_eq_layer (iblk1 V c 0 t) (iblk1 V c 1 t) (iblk1 V c 3 t) (iblk1 V c 2 t) (iblk1 V c 4 t) (iblk1 V c 5 t)
    (iblk1 V c 6 t) (iblk1 V c 7 t) (V c main_v44) (V c main_v17) (V c main_arg2) (V c main_v34) (V c main_v7) (V c main_v46)
    (V c main_v48) (V c main_v50) (j 0) (j 1) (((cfg1.win 8).blk t).view.emb j) ?_ ?_ ?_ ?_ ?_ ?_ ?_ ?_
  · intro k
    show V c main_v44 (((cfg1.win 0).blk t).view.emb (ix2 (j 0) k)) = V c main_v44 (ix2 ((((cfg1.win 8).blk t).view.emb j) 0) k)
    refine congrArg (V c main_v44) (funext fun a => Fin.ext ?_)
    match a with
    | ⟨0, _⟩ => show win1_0.index t (0 : Fin 2) * 2000 + 1 * (j 0).val = win1_8.index t (0 : Fin 2) * 2000 + 1 * (j 0).val; omega
    | ⟨1, _⟩ => show win1_0.index t (1 : Fin 2) * 128 + 1 * k.val = k.val; omega
  · intro k
    show V c main_v17 (((cfg1.win 1).blk t).view.emb (ix2 (j 0) k)) = V c main_v17 (ix2 ((((cfg1.win 8).blk t).view.emb j) 0) k)
    refine congrArg (V c main_v17) (funext fun a => Fin.ext ?_)
    match a with
    | ⟨0, _⟩ => show win1_1.index t (0 : Fin 2) * 2000 + 1 * (j 0).val = win1_8.index t (0 : Fin 2) * 2000 + 1 * (j 0).val; omega
    | ⟨1, _⟩ => show win1_1.index t (1 : Fin 2) * 128 + 1 * k.val = k.val; omega
  · intro k
    show V c main_v34 (((cfg1.win 3).blk t).view.emb (ix2 (j 0) k)) = V c main_v34 (ix2 ((((cfg1.win 8).blk t).view.emb j) 0) k)
    refine congrArg (V c main_v34) (funext fun a => Fin.ext ?_)
    match a with
    | ⟨0, _⟩ => show win1_3.index t (0 : Fin 2) * 2000 + 1 * (j 0).val = win1_8.index t (0 : Fin 2) * 2000 + 1 * (j 0).val; omega
    | ⟨1, _⟩ => show win1_3.index t (1 : Fin 2) * 128 + 1 * k.val = k.val; omega
  · show V c main_arg2 (((cfg1.win 2).blk t).view.emb (ix2 (j 0) (0 : Fin 1))) = V c main_arg2 (ix2 ((((cfg1.win 8).blk t).view.emb j) 0) (0 : Fin 1))
    refine congrArg (V c main_arg2) (funext fun a => Fin.ext ?_)
    match a with
    | ⟨0, _⟩ => show win1_2.index t (0 : Fin 2) * 2000 + 1 * (j 0).val = win1_8.index t (0 : Fin 2) * 2000 + 1 * (j 0).val; omega
    | ⟨1, _⟩ => show win1_2.index t (1 : Fin 2) * 1 + 1 * 0 = 0; omega
  · show V c main_v7 (((cfg1.win 4).blk t).view.emb (ix2 (j 0) (0 : Fin 1))) = V c main_v7 (ix2 ((((cfg1.win 8).blk t).view.emb j) 0) (0 : Fin 1))
    refine congrArg (V c main_v7) (funext fun a => Fin.ext ?_)
    match a with
    | ⟨0, _⟩ => show win1_4.index t (0 : Fin 2) * 2000 + 1 * (j 0).val = win1_8.index t (0 : Fin 2) * 2000 + 1 * (j 0).val; omega
    | ⟨1, _⟩ => show win1_4.index t (1 : Fin 2) * 1 + 1 * 0 = 0; omega
  · intro k
    show V c main_v46 (((cfg1.win 5).blk t).view.emb (ix2 k (j 1))) = V c main_v46 (ix2 k ((((cfg1.win 8).blk t).view.emb j) 1))
    refine congrArg (V c main_v46) (funext fun a => Fin.ext ?_)
    match a with
    | ⟨0, _⟩ => show win1_5.index t (0 : Fin 2) * 128 + 1 * k.val = k.val; omega
    | ⟨1, _⟩ => show win1_5.index t (1 : Fin 2) * 128 + 1 * (j 1).val = win1_8.index t (1 : Fin 2) * 128 + 1 * (j 1).val; omega
  · intro k
    show V c main_v48 (((cfg1.win 6).blk t).view.emb (ix2 k (j 1))) = V c main_v48 (ix2 k ((((cfg1.win 8).blk t).view.emb j) 1))
    refine congrArg (V c main_v48) (funext fun a => Fin.ext ?_)
    match a with
    | ⟨0, _⟩ => show win1_6.index t (0 : Fin 2) * 128 + 1 * k.val = k.val; omega
    | ⟨1, _⟩ => show win1_6.index t (1 : Fin 2) * 128 + 1 * (j 1).val = win1_8.index t (1 : Fin 2) * 128 + 1 * (j 1).val; omega
  · intro k
    show V c main_v50 (((cfg1.win 7).blk t).view.emb (ix2 k (j 1))) = V c main_v50 (ix2 k ((((cfg1.win 8).blk t).view.emb j) 1))
    refine congrArg (V c main_v50) (funext fun a => Fin.ext ?_)
    match a with
    | ⟨0, _⟩ => show win1_7.index t (0 : Fin 2) * 128 + 1 * k.val = k.val; omega
    | ⟨1, _⟩ => show win1_7.index t (1 : Fin 2) * 128 + 1 * (j 1).val = win1_8.index t (1 : Fin 2) * 128 + 1 * (j 1).val; omega

/-- An index of the output array is in point t's block iff each coordinate is in the block's range on its axis. -/
theorem mem_blk1 (t : Fin cfg1.N) (i : S50000x128.Idx) :
    i ∈ ((cfg1.win 8).blk t).view.set ↔ ∀ a : Fin 2, win1_8.index t a * S2000x128.size a ≤ (i a).val
      ∧ (i a).val < win1_8.index t a * S2000x128.size a + S2000x128.size a := by
  show i ∈ ((View.whole main_v51).slice (win1_8.rect t)).set ↔ _
  rw [View.set_slice_whole, Rect.mem_set_unit]
  exact Iff.rfl

/-- The 25 row blocks of 2000 rows tile the 50000 rows: row r lies in the block of point r / 2000. -/
theorem cover1 (i : S50000x128.Idx) :
    ∃ t : Fin cfg1.N, (cfg1.win 8).flush t = true ∧ i ∈ ((cfg1.win 8).blk t).view.set := by
  have hN : cfg1.N = 25 := N_1
  have hi0 : (i 0).val < 50000 := (i 0).isLt
  have hi1 : (i 1).val < 128 := (i 1).isLt
  have ht : (i 0).val / 2000 < cfg1.N := by rw [hN]; omega
  refine ⟨⟨(i 0).val / 2000, ht⟩, flush1_8 _, ?_⟩
  rw [mem_blk1]
  obtain ⟨-, -, -, -, -, -, -, -, -, -, -, -, -, -, -, -, e80, e81⟩ := idx_facts1 ⟨(i 0).val / 2000, ht⟩
  have e80' : win1_8.index ⟨(i 0).val / 2000, ht⟩ (0 : Fin 2) = (i 0).val / 2000 := e80
  intro a
  match a with
  | ⟨0, _⟩ =>
    show win1_8.index ⟨(i 0).val / 2000, ht⟩ (0 : Fin 2) * 2000 ≤ (i 0).val
      ∧ (i 0).val < win1_8.index ⟨(i 0).val / 2000, ht⟩ (0 : Fin 2) * 2000 + 2000
    rw [e80']; omega
  | ⟨1, _⟩ =>
    show win1_8.index ⟨(i 0).val / 2000, ht⟩ (1 : Fin 2) * 128 ≤ (i 1).val
      ∧ (i 1).val < win1_8.index ⟨(i 0).val / 2000, ht⟩ (1 : Fin 2) * 128 + 128
    rw [e81]; omega

/-- THE ARRAY launch 1 leaves: the layer function of the arrays it found, whole. -/
theorem arr1 (c : Dev nD) :
    (dat1 (F := Ideal) V c).arrAt 8 cfg1.N
      = layer (V c main_v44) (V c main_v17) (V c main_arg2) (V c main_v34) (V c main_v7) (V c main_v46) (V c main_v48) (V c main_v50) :=
  (dat1 (F := Ideal) V c).arrAt_eq_of_cover 8 _ (fun t _ => flushed1 V c t) (cover1)

end Cert.KernelIdeal.Blocks

end
-- ==== Proof.HostSide.lean ====
/-
  The host operations around the two launches, read back.

  Before the first launch @main computes, from the arguments: the in-degree bits of the nodes (a scatter-sum of ones over the
  destination column, compared with 0), their reading as a 0 / 1 column, the relation rows gathered along the edges and summed
  into their destination nodes, the feature rows gathered along the edges and summed likewise, and layer 0's three weight
  slices. Between the launches it gathers and sums the rows of the first launch's output and takes layer 1's slices. Every
  start index is first wrapped (a negative index has the table's length added), as jnp's indexing does.
-/
import proofs.«113642_j49624052138542_2_alg».proof.Proof.FrameKIP
import Idealize.ShloMosaic.PureOps.Ideal

set_option maxRecDepth 16384

noncomputable section

namespace Cert.KernelIdeal.HostSide

open Cert.KernelIdeal Cert.KernelIdeal.Gen Cert.KernelIdeal.GenP
open Idealize.ShloMosaic Idealize.ShloMosaic.TcCoe Idealize.ShloMosaic.Tactic Idealize.SL.Sem Idealize.ShloMosaic.StableHlo

/-- An index vector as a column of start indices. -/
def idxCol (x : IVec S500000 32) : IVec S500000x1 32 := broadcastInDim S500000x1 ![0] bcast_S500000_S500000x1_0 x
/-- A negative index has the table's length `n` added. -/
def wrap (n : BitVec 32) (x : IVec S500000 32) : IVec S500000 32 :=
  select (cmpi .slt x (broadcastInDim S500000 ![] bcast_S_S500000 (constantI S_ 32 0#32)))
    (addi x (broadcastInDim S500000 ![] bcast_S_S500000 (constantI S_ 32 n))) x
/-- The zero array a scatter-sum starts from. -/
def zero2 : FVec Ideal S50000x128 .f32 := broadcastInDim S50000x128 ![] bcast_S_S50000x128 (constant (F := Ideal) S_ .f32 0x00000000#32)
/-- Rows summed into their destination nodes. -/
def segsum (dst : IVec S500000 32) (u : FVec Ideal S500000x128 .f32) : FVec Ideal S50000x128 .f32 :=
  Host.scatterAdd scatter_S50000x128_S500000x1_S500000x128_1_0_0_1 zero2 (idxCol dst) u
/-- Feature rows gathered along the edges' sources. -/
def rowsH (h : FVec Ideal S50000x128 .f32) (src : IVec S500000 32) : FVec Ideal S500000x128 .f32 :=
  Host.gather gather_S50000x128_S500000x1_S500000x128_1_0_n_n_0_1_1128 h (idxCol (wrap 50000#32 src))
/-- Relation rows gathered along the edges' types. -/
def rowsR (rel : FVec Ideal S200x128 .f32) (et : IVec S500000 32) : FVec Ideal S500000x128 .f32 :=
  Host.gather gather_S200x128_S500000x1_S500000x128_1_0_n_n_0_1_1128 rel (idxCol (wrap 200#32 et))
/-- The in-degree bits: a scatter-sum of ones over the destinations, compared with 0. -/
def degPos (dst : IVec S500000 32) : IVec S50000 1 :=
  cmpf .ogt (Host.scatterAdd scatter_S50000_S500000x1_S500000_n_0_0_1
      (broadcastInDim S50000 ![] bcast_S_S50000 (constant (F := Ideal) S_ .f32 0x00000000#32)) (idxCol dst)
      (broadcastInDim S500000 ![] bcast_S_S500000 (constant (F := Ideal) S_ .f32 0x3F800000#32)))
    (broadcastInDim S50000 ![] bcast_S_S50000 (constant (F := Ideal) S_ .f32 0x00000000#32))
/-- The bits as a 0 / 1 column. -/
def maskCol (dst : IVec S500000 32) : FVec Ideal S50000x1 .f32 :=
  broadcastInDim S50000x1 ![0] bcast_S50000_S50000x1_0 (uitofp (F := Ideal) .f32 (degPos dst))
/-- Layer 0's slice of a stacked weight. -/
def wslice0 (w : FVec Ideal S2x128x128 .f32) : FVec Ideal S128x128 .f32 :=
  shapeCast S128x128 (extractStridedSlice S1x128x128 ![0, 0, 0] w slices_S2x128x128_S1x128x128_0_0_0) shapeCasts_S1x128x128_S128x128
/-- Layer 1's slice of a stacked weight. -/
def wslice1 (w : FVec Ideal S2x128x128 .f32) : FVec Ideal S128x128 .f32 :=
  shapeCast S128x128 (extractStridedSlice S1x128x128 ![1, 0, 0] w slices_S2x128x128_S1x128x128_1_0_0) shapeCasts_S1x128x128_S128x128

variable (m : (ℓ : Loc nD τ sig) → Buf (Elt Ideal) ℓ) (ρ : Dev nD → PrngReg)

/-! ## What the first launch finds -/

theorem V1_v27 (c : Dev nD) : V1 m ρ c main_v27 = segsum (m ((c : Thread nD τ).loc main_arg7)) (rowsH (m ((c : Thread nD τ).loc main_arg0)) (m ((c : Thread nD τ).loc main_arg6))) := by
  show StableHlo.after hostOps0 (W0 m ρ c) (Proc.devRef .tc main_v27) = _
  after_results_simp <;> rfl

theorem V1_v17 (c : Dev nD) : V1 m ρ c main_v17 = segsum (m ((c : Thread nD τ).loc main_arg7)) (rowsR (m ((c : Thread nD τ).loc main_arg1)) (m ((c : Thread nD τ).loc main_arg8))) := by
  show StableHlo.after hostOps0 (W0 m ρ c) (Proc.devRef .tc main_v17) = _
  after_results_simp <;> rfl

theorem V1_arg2 (c : Dev nD) : V1 m ρ c main_arg2 = m ((c : Thread nD τ).loc main_arg2) := by
  show StableHlo.after hostOps0 (W0 m ρ c) (Proc.devRef .tc main_arg2) = _
  after_results_simp <;> rfl

theorem V1_arg0 (c : Dev nD) : V1 m ρ c main_arg0 = m ((c : Thread nD τ).loc main_arg0) := by
  show StableHlo.after hostOps0 (W0 m ρ c) (Proc.devRef .tc main_arg0) = _
  after_results_simp <;> rfl

theorem V1_v7 (c : Dev nD) : V1 m ρ c main_v7 = maskCol (m ((c : Thread nD τ).loc main_arg7)) := by
  show StableHlo.after hostOps0 (W0 m ρ c) (Proc.devRef .tc main_v7) = _
  after_results_simp <;> rfl

theorem V1_v29 (c : Dev nD) : V1 m ρ c main_v29 = wslice0 (m ((c : Thread nD τ).loc main_arg3)) := by
  show StableHlo.after hostOps0 (W0 m ρ c) (Proc.devRef .tc main_v29) = _
  after_results_simp <;> rfl

theorem V1_v31 (c : Dev nD) : V1 m ρ c main_v31 = wslice0 (m ((c : Thread nD τ).loc main_arg4)) := by
  show StableHlo.after hostOps0 (W0 m ρ c) (Proc.devRef .tc main_v31) = _
  after_results_simp <;> rfl

theorem V1_v33 (c : Dev nD) : V1 m ρ c main_v33 = wslice0 (m ((c : Thread nD τ).loc main_arg5)) := by
  show StableHlo.after hostOps0 (W0 m ρ c) (Proc.devRef .tc main_v33) = _
  after_results_simp <;> rfl

/-! ## What the first launch leaves, buffer by buffer -/

/-- A buffer neither launch 0 nor the first stretch writes is as launched. -/
theorem W2_arg6 (c : Dev nD) : W2 m ρ c (Proc.devRef .tc main_arg6) = m ((c : Thread nD τ).loc main_arg6) :=
  (W2_of_ne m ρ c main_arg6 (by decide)).trans (by
    show StableHlo.after hostOps0 (W0 m ρ c) (Proc.devRef .tc main_arg6) = _
    after_results_simp <;> rfl)
theorem W2_arg7 (c : Dev nD) : W2 m ρ c (Proc.devRef .tc main_arg7) = m ((c : Thread nD τ).loc main_arg7) :=
  (W2_of_ne m ρ c main_arg7 (by decide)).trans (by
    show StableHlo.after hostOps0 (W0 m ρ c) (Proc.devRef .tc main_arg7) = _
    after_results_simp <;> rfl)
theorem W2_arg3 (c : Dev nD) : W2 m ρ c (Proc.devRef .tc main_arg3) = m ((c : Thread nD τ).loc main_arg3) :=
  (W2_of_ne m ρ c main_arg3 (by decide)).trans (by
    show StableHlo.after hostOps0 (W0 m ρ c) (Proc.devRef .tc main_arg3) = _
    after_results_simp <;> rfl)
theorem W2_arg4 (c : Dev nD) : W2 m ρ c (Proc.devRef .tc main_arg4) = m ((c : Thread nD τ).loc main_arg4) :=
  (W2_of_ne m ρ c main_arg4 (by decide)).trans (by
    show StableHlo.after hostOps0 (W0 m ρ c) (Proc.devRef .tc main_arg4) = _
    after_results_simp <;> rfl)
theorem W2_arg5 (c : Dev nD) : W2 m ρ c (Proc.devRef .tc main_arg5) = m ((c : Thread nD τ).loc main_arg5) :=
  (W2_of_ne m ρ c main_arg5 (by decide)).trans (by
    show StableHlo.after hostOps0 (W0 m ρ c) (Proc.devRef .tc main_arg5) = _
    after_results_simp <;> rfl)

/-- An input array of launch 0 ends as the launch found it. -/
theorem W2_v17 (c : Dev nD) : W2 m ρ c (Proc.devRef .tc main_v17) = V1 m ρ c main_v17 :=
  (W2_arr m ρ c 1).trans (((dat0 (V1 m ρ) c).arrAt_in 1 rfl _).trans (A_eq0 (V1 m ρ) c 1))
theorem W2_arg2 (c : Dev nD) : W2 m ρ c (Proc.devRef .tc main_arg2) = V1 m ρ c main_arg2 :=
  (W2_arr m ρ c 2).trans (((dat0 (V1 m ρ) c).arrAt_in 2 rfl _).trans (A_eq0 (V1 m ρ) c 2))
theorem W2_v7 (c : Dev nD) : W2 m ρ c (Proc.devRef .tc main_v7) = V1 m ρ c main_v7 :=
  (W2_arr m ρ c 4).trans (((dat0 (V1 m ρ) c).arrAt_in 4 rfl _).trans (A_eq0 (V1 m ρ) c 4))
/-- Its output array ends at what its write-backs leave. -/
theorem W2_v34 (c : Dev nD) : W2 m ρ c (Proc.devRef .tc main_v34) = (dat0 (V1 m ρ) c).arrAt 8 cfg0.N :=
  W2_arr m ρ c 8

/-! ## What the second launch finds -/

theorem V3_v44 (c : Dev nD) : V3 m ρ c main_v44 = segsum (W2 m ρ c (Proc.devRef .tc main_arg7))
    (rowsH (W2 m ρ c (Proc.devRef .tc main_v34)) (W2 m ρ c (Proc.devRef .tc main_arg6))) := by
  show StableHlo.after hostOps1 (W2 m ρ c) (Proc.devRef .tc main_v44) = _
  after_results_simp <;> rfl
theorem V3_v17 (c : Dev nD) : V3 m ρ c main_v17 = W2 m ρ c (Proc.devRef .tc main_v17) := by
  show StableHlo.after hostOps1 (W2 m ρ c) (Proc.devRef .tc main_v17) = _
  after_results_simp <;> rfl
theorem V3_arg2 (c : Dev nD) : V3 m ρ c main_arg2 = W2 m ρ c (Proc.devRef .tc main_arg2) := by
  show StableHlo.after hostOps1 (W2 m ρ c) (Proc.devRef .tc main_arg2) = _
  after_results_simp <;> rfl
theorem V3_v34 (c : Dev nD) : V3 m ρ c main_v34 = W2 m ρ c (Proc.devRef .tc main_v34) := by
  show StableHlo.after hostOps1 (W2 m ρ c) (Proc.devRef .tc main_v34) = _
  after_results_simp <;> rfl
theorem V3_v7 (c : Dev nD) : V3 m ρ c main_v7 = W2 m ρ c (Proc.devRef .tc main_v7) := by
  show StableHlo.after hostOps1 (W2 m ρ c) (Proc.devRef .tc main_v7) = _
  after_results_simp <;> rfl
theorem V3_v46 (c : Dev nD) : V3 m ρ c main_v46 = wslice1 (W2 m ρ c (Proc.devRef .tc main_arg3)) := by
  show StableHlo.after hostOps1 (W2 m ρ c) (Proc.devRef .tc main_v46) = _
  after_results_simp <;> rfl
theorem V3_v48 (c : Dev nD) : V3 m ρ c main_v48 = wslice1 (W2 m ρ c (Proc.devRef .tc main_arg4)) := by
  show StableHlo.after hostOps1 (W2 m ρ c) (Proc.devRef .tc main_v48) = _
  after_results_simp <;> rfl
theorem V3_v50 (c : Dev nD) : V3 m ρ c main_v50 = wslice1 (W2 m ρ c (Proc.devRef .tc main_arg5)) := by
  show StableHlo.after hostOps1 (W2 m ρ c) (Proc.devRef .tc main_v50) = _
  after_results_simp <;> rfl

end Cert.KernelIdeal.HostSide

end
-- ==== Proof.KernelValue.lean ====
/-
  The kernel's result as one function of the arguments.

  The first launch leaves layer 0 of the node update of the arguments; the second launch leaves layer 1 of what the first left.
  Each launch's aggregates are scatter-sums, over the destination column, of rows gathered along the edges: of the current
  features (recomputed per layer) and of the relation table (computed once and used by both launches).
-/
import proofs.«113642_j49624052138542_2_alg».proof.Proof.KernelRun
import proofs.«113642_j49624052138542_2_alg».proof.Proof.Blocks
import proofs.«113642_j49624052138542_2_alg».proof.Proof.HostSide

set_option maxRecDepth 16384

noncomputable section

namespace Cert.KernelIdeal.KernelValue

open Cert.KernelIdeal Cert.KernelIdeal.Gen Cert.KernelIdeal.GenP Cert.KernelIdeal.HostSide
open Idealize.ShloMosaic Idealize.ShloMosaic.TcCoe Idealize.SL.Sem Cert.Layer

/-- Layer 0 of the kernel's program, of the arguments. -/
def out0 (a0 : FVec Ideal S50000x128 .f32) (a1 : FVec Ideal S200x128 .f32) (a2 : FVec Ideal S50000x1 .f32)
    (a3 a4 a5 : FVec Ideal S2x128x128 .f32) (a6 a7 a8 : IVec S500000 32) : S50000x128.Idx → EReal :=
  layer (segsum a7 (rowsH a0 a6)) (segsum a7 (rowsR a1 a8)) a2 a0 (maskCol a7) (wslice0 a3) (wslice0 a4) (wslice0 a5)

/-- Layer 1 of the kernel's program, of layer 0's output `h` and the arguments. -/
def out1 (h : S50000x128.Idx → EReal) (a1 : FVec Ideal S200x128 .f32) (a2 : FVec Ideal S50000x1 .f32)
    (a3 a4 a5 : FVec Ideal S2x128x128 .f32) (a6 a7 a8 : IVec S500000 32) : S50000x128.Idx → EReal :=
  layer (segsum a7 (rowsH h a6)) (segsum a7 (rowsR a1 a8)) a2 h (maskCol a7) (wslice1 a3) (wslice1 a4) (wslice1 a5)

variable (m : (ℓ : Loc nD τ sig) → Buf (Elt Ideal) ℓ) (ρ : Dev nD → PrngReg)

/-- The first launch's output array. -/
theorem first (c : Dev nD) :
    (dat0 (F := Ideal) (V1 m ρ) c).arrAt 8 cfg0.N
      = out0 (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8)) := by
  rw [Blocks.arr0 (V1 m ρ) c, V1_v27, V1_v17, V1_arg2, V1_arg0, V1_v7, V1_v29, V1_v31, V1_v33]
  rfl

/-- THE RESULT: the last boundary's contents at the result buffer is layer 1 of layer 0 of the arguments. -/
theorem result (c : Dev nD) :
    W4 m ρ c (Proc.devRef .tc main_v51)
      = out1 (out0 (m ((c : Thread nD τ).loc main_arg0)) (m ((c : Thread nD τ).loc main_arg1)) (m ((c : Thread nD τ).loc main_arg2))
              (m ((c : Thread nD τ).loc main_arg3)) (m ((c : Thread nD τ).loc main_arg4)) (m ((c : Thread nD τ).loc main_arg5))
              (m ((c : Thread nD τ).loc main_arg6)) (m ((c : Thread nD τ).loc main_arg7)) (m ((c : Thread nD τ).loc main_arg8)))
          (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8)) := by
  rw [Run.result_arr m ρ c, Blocks.arr1 (V3 m ρ) c, V3_v44, V3_v17, V3_arg2, V3_v34, V3_v7, V3_v46, V3_v48, V3_v50,
    W2_arg7, W2_arg6, W2_arg3, W2_arg4, W2_arg5, W2_v17, W2_arg2, W2_v7, W2_v34, first m ρ c, V1_v17, V1_arg2, V1_v7]
  rfl

end Cert.KernelIdeal.KernelValue

end
-- ==== Proof.RefSide.lean ====
/-
  The reference's two layers, read at an entry.

  Per layer the reference gathers the feature row of every edge's source and the relation row of its type, multiplies their sum
  by the layer's weight, scatter-sums the products into the destination nodes, scales by the node's norm, adds the self-loop
  product chosen by the in-degree bit, and applies the activation. Read at (n, j) this is `nodeOut` of the scatter-sum's entry;
  the scatter-sum is the library's row scatter-sum, and its updates are sums over the 128 contracted positions.
-/
import proofs.«113642_j49624052138542_2_alg».proof.Proof.ReadRP
import proofs.«113642_j49624052138542_2_alg».proof.Proof.NodeSpec
import proofs.«113642_j49624052138542_2_alg».proof.Proof.LibRowScatter

set_option maxRecDepth 16384

noncomputable section

namespace Cert.ReferenceIdeal.RefSide

open Cert.ReferenceIdeal Cert.ReferenceIdeal.Gen Cert.ReferenceIdeal.ReadP
open Idealize.ShloMosaic Idealize.ShloMosaic.ValueIdx Cert.NodeSpec

/-- Layer 1 of the reference at entry (n, j): the activation of the scatter-summed messages scaled by the node's norm plus the
    self-loop term the node's in-degree bit chooses. -/
theorem ref_layer1 (x0 : FVec Ideal S50000x128 .f32) (x1 : FVec Ideal S200x128 .f32) (x2 : FVec Ideal S50000x1 .f32)
    (x3 x4 x5 : FVec Ideal S2x128x128 .f32) (x6 x7 x8 : IVec S500000 32) (n : Fin 50000) (j : Fin 128) :
    val_main_v42 (F := Ideal) x0 x1 x2 x3 x4 x5 x6 x7 x8 (ix2 n j)
      = nodeOut (val_main_v27 (F := Ideal) x0 x1 x3 x6 x7 x8 (ix2 n j)) (x2 (ix2 n (0 : Fin 1))) (val_main_v5 (F := Ideal) x7 (ix1 n))
          (∑ k : Fin 128, x0 (ix2 n k) * val_main_v31 (F := Ideal) x4 (ix2 k j))
          (∑ k : Fin 128, x0 (ix2 n k) * val_main_v34 (F := Ideal) x5 (ix2 k j)) := by
  have e1 : ∀ k : Fin 128, lidx_main_v32 (ix2 n j) k = ix2 n k := fun k => funext fun a => Fin.ext (by
    match a with | ⟨0, _⟩ => rfl | ⟨1, _⟩ => rfl)
  have e2 : ∀ k : Fin 128, ridx_main_v32 (ix2 n j) k = ix2 k j := fun k => funext fun a => Fin.ext (by
    match a with | ⟨0, _⟩ => rfl | ⟨1, _⟩ => rfl)
  have e3 : ∀ k : Fin 128, lidx_main_v35 (ix2 n j) k = ix2 n k := fun k => funext fun a => Fin.ext (by
    match a with | ⟨0, _⟩ => rfl | ⟨1, _⟩ => rfl)
  have e4 : ∀ k : Fin 128, ridx_main_v35 (ix2 n j) k = ix2 k j := fun k => funext fun a => Fin.ext (by
    match a with | ⟨0, _⟩ => rfl | ⟨1, _⟩ => rfl)
  have e5 : idx_main_v28 (ix2 n j) = ix2 n (0 : Fin 1) := funext fun a => Fin.ext (by
    match a with | ⟨0, _⟩ => rfl | ⟨1, _⟩ => rfl)
  have e6 : idx_main_v6 (idx_main_call0_v0 (ix2 n j)) = ix1 n := funext fun a => Fin.ext (by
    match a with | ⟨0, _⟩ => rfl)
  rw [val_main_v42_apply, val_main_v39_apply, val_main_v41_apply, val_main_v37_apply, val_main_v29_apply,
    val_main_v36_apply, val_main_v28_apply, val_main_call0_v0_apply, val_main_v6_apply, val_main_v32_apply, val_main_v35_apply,
    val_main_v38_apply, val_main_v40_apply, val_main_cst_6_apply, val_main_cst_7_apply]
  simp only [e1, e2, e3, e4, e5, e6]
  rfl

/-- Layer 1's scatter-sum is the row scatter-sum of the library's form, over the same operands. -/
theorem sc1_eq (x0 : FVec Ideal S50000x128 .f32) (x1 : FVec Ideal S200x128 .f32) (x2 : FVec Ideal S50000x1 .f32)
    (x3 x4 x5 : FVec Ideal S2x128x128 .f32) (x6 x7 x8 : IVec S500000 32) :
    val_main_v27 (F := Ideal) x0 x1 x3 x6 x7 x8
      = Ideal.hostScatterAdd (Cert.LibRowScatter.rowDims 50000 500000 128 scatter_S50000x128_S500000x1_S500000x128_1_0_0_1.wf)
          (val_main_v25 (F := Ideal)) (val_main_v26 (F := Ideal) x7) (val_main_v24 (F := Ideal) x0 x1 x3 x6 x8) := rfl

/-- Layer 1's edge messages, entry by entry: the gathered feature row plus the gathered relation row, against a weight column. -/
theorem msg1_fun (x0 : FVec Ideal S50000x128 .f32) (x1 : FVec Ideal S200x128 .f32) (x2 : FVec Ideal S50000x1 .f32)
    (x3 x4 x5 : FVec Ideal S2x128x128 .f32) (x6 x7 x8 : IVec S500000 32) :
    val_main_v24 (F := Ideal) x0 x1 x3 x6 x8
      = fun e => ∑ k : Fin 128, (val_main_v13 (F := Ideal) x0 x6 (ix2 (e 0) k) + val_main_v20 (F := Ideal) x1 x8 (ix2 (e 0) k))
          * val_main_v23 (F := Ideal) x3 (ix2 k (e 1)) := by
  funext e
  rw [val_main_v24_apply]
  refine Finset.sum_congr rfl fun k _ => ?_
  have e1 : lidx_main_v24 e k = ix2 (e 0) k := funext fun a => Fin.ext (by match a with | ⟨0, _⟩ => rfl | ⟨1, _⟩ => rfl)
  have e2 : ridx_main_v24 e k = ix2 k (e 1) := funext fun a => Fin.ext (by match a with | ⟨0, _⟩ => rfl | ⟨1, _⟩ => rfl)
  rw [val_main_v21_apply, e1, e2]
  rfl

/-- The array layer 1's scatter-sum starts from is zero everywhere. -/
theorem zero1 (i : S50000x128.Idx) : val_main_v25 (F := Ideal) i = 0 := by
  rw [val_main_v25_apply, val_main_cst_5_apply]
  exact Ideal.ofBits_zero_f32

/-- Layer 2 of the reference at entry (n, j): the activation of the scatter-summed messages scaled by the node's norm plus the
    self-loop term the node's in-degree bit chooses. -/
theorem ref_layer2 (x0 : FVec Ideal S50000x128 .f32) (x1 : FVec Ideal S200x128 .f32) (x2 : FVec Ideal S50000x1 .f32)
    (x3 x4 x5 : FVec Ideal S2x128x128 .f32) (x6 x7 x8 : IVec S500000 32) (n : Fin 50000) (j : Fin 128) :
    val_main_v78 (F := Ideal) x0 x1 x2 x3 x4 x5 x6 x7 x8 (ix2 n j)
      = nodeOut (val_main_v63 (F := Ideal) x0 x1 x2 x3 x4 x5 x6 x7 x8 (ix2 n j)) (x2 (ix2 n (0 : Fin 1))) (val_main_v5 (F := Ideal) x7 (ix1 n))
          (∑ k : Fin 128, (val_main_v42 (F := Ideal) x0 x1 x2 x3 x4 x5 x6 x7 x8) (ix2 n k) * val_main_v67 (F := Ideal) x4 (ix2 k j))
          (∑ k : Fin 128, (val_main_v42 (F := Ideal) x0 x1 x2 x3 x4 x5 x6 x7 x8) (ix2 n k) * val_main_v70 (F := Ideal) x5 (ix2 k j)) := by
  have e1 : ∀ k : Fin 128, lidx_main_v68 (ix2 n j) k = ix2 n k := fun k => funext fun a => Fin.ext (by
    match a with | ⟨0, _⟩ => rfl | ⟨1, _⟩ => rfl)
  have e2 : ∀ k : Fin 128, ridx_main_v68 (ix2 n j) k = ix2 k j := fun k => funext fun a => Fin.ext (by
    match a with | ⟨0, _⟩ => rfl | ⟨1, _⟩ => rfl)
  have e3 : ∀ k : Fin 128, lidx_main_v71 (ix2 n j) k = ix2 n k := fun k => funext fun a => Fin.ext (by
    match a with | ⟨0, _⟩ => rfl | ⟨1, _⟩ => rfl)
  have e4 : ∀ k : Fin 128, ridx_main_v71 (ix2 n j) k = ix2 k j := fun k => funext fun a => Fin.ext (by
    match a with | ⟨0, _⟩ => rfl | ⟨1, _⟩ => rfl)
  have e5 : idx_main_v64 (ix2 n j) = ix2 n (0 : Fin 1) := funext fun a => Fin.ext (by
    match a with | ⟨0, _⟩ => rfl | ⟨1, _⟩ => rfl)
  have e6 : idx_main_v6 (idx_main_call2_v0 (ix2 n j)) = ix1 n := funext fun a => Fin.ext (by
    match a with | ⟨0, _⟩ => rfl)
  rw [val_main_v78_apply, val_main_v75_apply, val_main_v77_apply, val_main_v73_apply, val_main_v65_apply,
    val_main_v72_apply, val_main_v64_apply, val_main_call2_v0_apply, val_main_v6_apply, val_main_v68_apply, val_main_v71_apply,
    val_main_v74_apply, val_main_v76_apply, val_main_cst_13_apply, val_main_cst_14_apply]
  simp only [e1, e2, e3, e4, e5, e6]
  rfl

/-- Layer 2's scatter-sum is the row scatter-sum of the library's form, over the same operands. -/
theorem sc2_eq (x0 : FVec Ideal S50000x128 .f32) (x1 : FVec Ideal S200x128 .f32) (x2 : FVec Ideal S50000x1 .f32)
    (x3 x4 x5 : FVec Ideal S2x128x128 .f32) (x6 x7 x8 : IVec S500000 32) :
    val_main_v63 (F := Ideal) x0 x1 x2 x3 x4 x5 x6 x7 x8
      = Ideal.hostScatterAdd (Cert.LibRowScatter.rowDims 50000 500000 128 scatter_S50000x128_S500000x1_S500000x128_1_0_0_1.wf)
          (val_main_v61 (F := Ideal)) (val_main_v62 (F := Ideal) x7) (val_main_v60 (F := Ideal) x0 x1 x2 x3 x4 x5 x6 x7 x8) := rfl

/-- Layer 2's edge messages, entry by entry: the gathered feature row plus the gathered relation row, against a weight column. -/
theorem msg2_fun (x0 : FVec Ideal S50000x128 .f32) (x1 : FVec Ideal S200x128 .f32) (x2 : FVec Ideal S50000x1 .f32)
    (x3 x4 x5 : FVec Ideal S2x128x128 .f32) (x6 x7 x8 : IVec S500000 32) :
    val_main_v60 (F := Ideal) x0 x1 x2 x3 x4 x5 x6 x7 x8
      = fun e => ∑ k : Fin 128, (val_main_v49 (F := Ideal) x0 x1 x2 x3 x4 x5 x6 x7 x8 (ix2 (e 0) k) + val_main_v56 (F := Ideal) x1 x8 (ix2 (e 0) k))
          * val_main_v59 (F := Ideal) x3 (ix2 k (e 1)) := by
  funext e
  rw [val_main_v60_apply]
  refine Finset.sum_congr rfl fun k _ => ?_
  have e1 : lidx_main_v60 e k = ix2 (e 0) k := funext fun a => Fin.ext (by match a with | ⟨0, _⟩ => rfl | ⟨1, _⟩ => rfl)
  have e2 : ridx_main_v60 e k = ix2 k (e 1) := funext fun a => Fin.ext (by match a with | ⟨0, _⟩ => rfl | ⟨1, _⟩ => rfl)
  rw [val_main_v57_apply, e1, e2]
  rfl

/-- The array layer 2's scatter-sum starts from is zero everywhere. -/
theorem zero2 (i : S50000x128.Idx) : val_main_v61 (F := Ideal) i = 0 := by
  rw [val_main_v61_apply, val_main_cst_12_apply]
  exact Ideal.ofBits_zero_f32

/-- The in-degree bits as a 0 / 1 column, read at node n: the bit as a real number. -/
theorem mask_at (pos : IVec S50000 1) (n : Fin 50000) :
    broadcastInDim S50000x1 ![0] bcast_S50000_S50000x1_0 (uitofp (F := Ideal) .f32 pos) (ix2 n (0 : Fin 1))
      = (((pos (ix1 n)).toNat : ℝ) : EReal) := by
  refine (broadcastInDim_apply _ bcast_S50000_S50000x1_0 (uitofp (F := Ideal) .f32 pos) (ix2 n (0 : Fin 1)) (ix1 n)
    (fun a => match a with
      | ⟨0, _⟩ => by show n.val = if (50000 : Nat) = 1 then 0 else n.val; rw [if_neg (by decide)])).trans ?_
  rfl

end Cert.ReferenceIdeal.RefSide

end
-- ==== Proof.Bridge.lean ====
/-
  The two programs compute one function of real inputs.

  Layer by layer: the kernel's layer (two scatter-sums of gathered rows added, then one weight product) is the reference's
  (the weight product of every edge's message, then one scatter-sum) — the exchange law, which needs every gathered entry and
  every weight entry real. The inputs are real by the precondition; layer 0's output is real because sums, products and
  selections of reals are, and that makes layer 1's gathered rows real in turn.
-/
import proofs.«113642_j49624052138542_2_alg».proof.Proof.RefSide
import proofs.«113642_j49624052138542_2_alg».proof.Proof.Layer
import proofs.«113642_j49624052138542_2_alg».proof.Proof.KernelValue

set_option maxRecDepth 16384

noncomputable section

namespace Cert.Bridge

open Cert.ReferenceIdeal Cert.ReferenceIdeal.Gen Cert.ReferenceIdeal.ReadP Cert.ReferenceIdeal.RefSide
open Idealize.ShloMosaic Idealize.ShloMosaic.ValueIdx Cert.NodeSpec Cert.Layer
open Cert.KernelIdeal.KernelValue (out0 out1)

/-- The row scatter-sum's dimension numbers, in the library's form. -/
abbrev D : ScatterDims ⟨2, ![50000, 128]⟩ ⟨2, ![500000, 1]⟩ ⟨2, ![500000, 128]⟩ :=
  Cert.LibRowScatter.rowDims 50000 500000 128 scatter_S50000x128_S500000x1_S500000x128_1_0_0_1.wf

/-- The in-degree bits as a 0 / 1 column. -/
abbrev maskOf (a7 : IVec S500000 32) : S50000x1.Idx → EReal :=
  broadcastInDim S50000x1 ![0] bcast_S50000_S50000x1_0 (uitofp (F := Ideal) .f32 (val_main_v5 (F := Ideal) a7))

variable (a0 : FVec Ideal S50000x128 .f32) (a1 : FVec Ideal S200x128 .f32) (a2 : FVec Ideal S50000x1 .f32)
  (a3 a4 a5 : FVec Ideal S2x128x128 .f32) (a6 a7 a8 : IVec S500000 32)

/-- The kernel's layer 0 in the reference's vocabulary: the same operations on the same operands. -/
theorem out0_R : out0 a0 a1 a2 a3 a4 a5 a6 a7 a8
    = layer (Ideal.hostScatterAdd D (val_main_v25 (F := Ideal)) (val_main_v26 (F := Ideal) a7) (val_main_v13 (F := Ideal) a0 a6))
        (Ideal.hostScatterAdd D (val_main_v25 (F := Ideal)) (val_main_v26 (F := Ideal) a7) (val_main_v20 (F := Ideal) a1 a8))
        a2 a0 (maskOf a7) (val_main_v23 (F := Ideal) a3) (val_main_v31 (F := Ideal) a4) (val_main_v34 (F := Ideal) a5) := rfl

/-- The kernel's layer 1 of a feature array `h`, in the reference's vocabulary. -/
theorem out1_R (h : S50000x128.Idx → EReal) : out1 h a1 a2 a3 a4 a5 a6 a7 a8
    = layer (Ideal.hostScatterAdd D (val_main_v61 (F := Ideal)) (val_main_v62 (F := Ideal) a7)
          (Host.gather gather_S50000x128_S500000x1_S500000x128_1_0_n_n_0_1_1128 h (val_main_v48 (F := Ideal) a6)))
        (Ideal.hostScatterAdd D (val_main_v61 (F := Ideal)) (val_main_v62 (F := Ideal) a7) (val_main_v56 (F := Ideal) a1 a8))
        a2 h (maskOf a7) (val_main_v59 (F := Ideal) a3) (val_main_v67 (F := Ideal) a4) (val_main_v70 (F := Ideal) a5) := rfl

/-- A weight slice of a real stacked weight is real. -/
theorem real_v23 (h3 : ∀ i, IsReal (a3 i)) (i : S128x128.Idx) : IsReal (val_main_v23 (F := Ideal) a3 i) := by
  rw [val_main_v23_apply, val_main_v22_apply]; exact h3 _
theorem real_v31 (h4 : ∀ i, IsReal (a4 i)) (i : S128x128.Idx) : IsReal (val_main_v31 (F := Ideal) a4 i) := by
  rw [val_main_v31_apply, val_main_v30_apply]; exact h4 _
theorem real_v34 (h5 : ∀ i, IsReal (a5 i)) (i : S128x128.Idx) : IsReal (val_main_v34 (F := Ideal) a5 i) := by
  rw [val_main_v34_apply, val_main_v33_apply]; exact h5 _
theorem real_v59 (h3 : ∀ i, IsReal (a3 i)) (i : S128x128.Idx) : IsReal (val_main_v59 (F := Ideal) a3 i) := by
  rw [val_main_v59_apply, val_main_v58_apply]; exact h3 _
theorem real_v67 (h4 : ∀ i, IsReal (a4 i)) (i : S128x128.Idx) : IsReal (val_main_v67 (F := Ideal) a4 i) := by
  rw [val_main_v67_apply, val_main_v66_apply]; exact h4 _
theorem real_v70 (h5 : ∀ i, IsReal (a5 i)) (i : S128x128.Idx) : IsReal (val_main_v70 (F := Ideal) a5 i) := by
  rw [val_main_v70_apply, val_main_v69_apply]; exact h5 _

/-- LAYER 0: the kernel's first launch leaves the reference's layer 0. -/
theorem layer0_eq (h0 : ∀ i, IsReal (a0 i)) (h1 : ∀ i, IsReal (a1 i)) (h3 : ∀ i, IsReal (a3 i)) :
    out0 a0 a1 a2 a3 a4 a5 a6 a7 a8 = val_main_v42 (F := Ideal) a0 a1 a2 a3 a4 a5 a6 a7 a8 := by
  rw [out0_R]
  funext i
  obtain ⟨n, j, rfl⟩ : ∃ (n : Fin 50000) (j : Fin 128), i = ix2 n j := ⟨i 0, i 1, eq_ix2 i⟩
  rw [ref_layer1, sc1_eq a0 a1 a2 a3 a4 a5 a6 a7 a8, msg1_fun a0 a1 a2 a3 a4 a5 a6 a7 a8]
  exact bridge _ (val_main_v25 (F := Ideal)) zero1 (val_main_v26 (F := Ideal) a7) (val_main_v13 (F := Ideal) a0 a6)
    (val_main_v20 (F := Ideal) a1 a8) (fun i => h0 _) (fun i => h1 _) a2 a0 (val_main_v5 (F := Ideal) a7) (maskOf a7)
    (fun n => mask_at (val_main_v5 (F := Ideal) a7) n) (val_main_v23 (F := Ideal) a3) (val_main_v31 (F := Ideal) a4)
    (val_main_v34 (F := Ideal) a5) (real_v23 a3 h3) n j

/-- Layer 0's output is a real array. -/
theorem real_v42 (h0 : ∀ i, IsReal (a0 i)) (h1 : ∀ i, IsReal (a1 i)) (h2 : ∀ i, IsReal (a2 i)) (h3 : ∀ i, IsReal (a3 i))
    (h4 : ∀ i, IsReal (a4 i)) (h5 : ∀ i, IsReal (a5 i)) (i : S50000x128.Idx) :
    IsReal (val_main_v42 (F := Ideal) a0 a1 a2 a3 a4 a5 a6 a7 a8 i) := by
  rw [← layer0_eq a0 a1 a2 a3 a4 a5 a6 a7 a8 h0 h1 h3, out0_R]
  exact layer_real _ _ _ _ _ _ _ _
    (scatter_real _ _ zero1 _ _ (fun i => h0 _)) (scatter_real _ _ zero1 _ _ (fun i => h1 _)) h2 h0
    (real_v23 a3 h3) (real_v31 a4 h4) (real_v34 a5 h5) i

/-- The rows gathered from layer 0's output are real: a gathered entry is an entry of the table. -/
theorem real_v49 (h0 : ∀ i, IsReal (a0 i)) (h1 : ∀ i, IsReal (a1 i)) (h2 : ∀ i, IsReal (a2 i)) (h3 : ∀ i, IsReal (a3 i))
    (h4 : ∀ i, IsReal (a4 i)) (h5 : ∀ i, IsReal (a5 i)) (i : S500000x128.Idx) :
    IsReal (val_main_v49 (F := Ideal) a0 a1 a2 a3 a4 a5 a6 a7 a8 i) := by
  unfold val_main_v49 Host.gather
  exact real_v42 a0 a1 a2 a3 a4 a5 a6 a7 a8 h0 h1 h2 h3 h4 h5 _

/-- LAYER 1: the kernel's second launch, run on the reference's layer 0, leaves the reference's layer 1. -/
theorem layer1_eq (h0 : ∀ i, IsReal (a0 i)) (h1 : ∀ i, IsReal (a1 i)) (h2 : ∀ i, IsReal (a2 i)) (h3 : ∀ i, IsReal (a3 i))
    (h4 : ∀ i, IsReal (a4 i)) (h5 : ∀ i, IsReal (a5 i)) :
    out1 (val_main_v42 (F := Ideal) a0 a1 a2 a3 a4 a5 a6 a7 a8) a1 a2 a3 a4 a5 a6 a7 a8
      = val_main_v78 (F := Ideal) a0 a1 a2 a3 a4 a5 a6 a7 a8 := by
  rw [out1_R]
  funext i
  obtain ⟨n, j, rfl⟩ : ∃ (n : Fin 50000) (j : Fin 128), i = ix2 n j := ⟨i 0, i 1, eq_ix2 i⟩
  rw [ref_layer2, sc2_eq a0 a1 a2 a3 a4 a5 a6 a7 a8, msg2_fun a0 a1 a2 a3 a4 a5 a6 a7 a8]
  exact bridge _ (val_main_v61 (F := Ideal)) zero2 (val_main_v62 (F := Ideal) a7)
    (val_main_v49 (F := Ideal) a0 a1 a2 a3 a4 a5 a6 a7 a8) (val_main_v56 (F := Ideal) a1 a8)
    (real_v49 a0 a1 a2 a3 a4 a5 a6 a7 a8 h0 h1 h2 h3 h4 h5) (fun i => h1 _) a2
    (val_main_v42 (F := Ideal) a0 a1 a2 a3 a4 a5 a6 a7 a8) (val_main_v5 (F := Ideal) a7) (maskOf a7)
    (fun n => mask_at (val_main_v5 (F := Ideal) a7) n) (val_main_v59 (F := Ideal) a3) (val_main_v67 (F := Ideal) a4)
    (val_main_v70 (F := Ideal) a5) (real_v59 a3 h3) n j

/-- THE TWO PROGRAMS' RESULTS: the kernel's closed form of real arguments is the reference's last stage. -/
theorem result_eq (h0 : ∀ i, IsReal (a0 i)) (h1 : ∀ i, IsReal (a1 i)) (h2 : ∀ i, IsReal (a2 i)) (h3 : ∀ i, IsReal (a3 i))
    (h4 : ∀ i, IsReal (a4 i)) (h5 : ∀ i, IsReal (a5 i)) :
    out1 (out0 a0 a1 a2 a3 a4 a5 a6 a7 a8) a1 a2 a3 a4 a5 a6 a7 a8 = val_main_v78 (F := Ideal) a0 a1 a2 a3 a4 a5 a6 a7 a8 := by
  rw [layer0_eq a0 a1 a2 a3 a4 a5 a6 a7 a8 h0 h1 h3]
  exact layer1_eq a0 a1 a2 a3 a4 a5 a6 a7 a8 h0 h1 h2 h3 h4 h5

end Cert.Bridge

end
-- ==== Proof.Finite.lean ====
/-
  From the finiteness precondition to "every float input entry is a real number".

  The precondition computes, for each of the six float arguments x, the word  all (|x| < +∞)  — a reduction by
  `and` over every axis of the comparison array — and conjoins the six words. If the result is 1 then every one of
  the six reductions is 1, hence every comparison word is 1, hence |x i| < ⊤ in the extended reals at every index;
  and an extended real whose absolute value max x (-x) lies below ⊤ is neither ⊤ nor ⊥, so it is a real.
-/
import proofs.«113642_j49624052138542_2_alg».proof.Pre_finite_inputs
import proofs.«113642_j49624052138542_2_alg».proof.Proof.Gen.Pre_finite_inputs
import Idealize.ShloMosaic.PureOps.Ideal
import Idealize.ShloMosaic.Lib.ReduceAll
import Idealize.ShloMosaic.Lib.ValueIdx
import Idealize.ShloMosaic.Lib.IdealHost

namespace Cert.Finite

open Idealize.ShloMosaic Idealize.ShloMosaic.ValueIdx Cert.Pre_finite_inputs

/-- The rank-0 shape has exactly one index. -/
instance subsingleton_S_ : Subsingleton S_.Idx := ⟨fun a b => funext fun d => d.elim0⟩

/-- An extended real whose absolute value `max x (-x)` is below `⊤` is a real number. -/
theorem real_of_abs_lt_top (x : EReal) (h : max x (-x) < ⊤) : ∃ r : ℝ, x = (r : EReal) := by
  induction x using EReal.rec with
  | bot => simp at h
  | coe r => exact ⟨r, rfl⟩
  | top => simp at h

/-- The f32 pattern `0x7F800000` denotes `+∞`. -/
theorem ofBits_inf_f32 : Ideal.ofBits .f32 0x7F800000#32 = (⊤ : EReal) := by
  simp [Ideal.ofBits, Ideal.ieee]

/-- One comparison word: `|x| < +∞` came out 1, so `x` is a real. -/
theorem real_of_cmp_one (x : EReal)
    (h : Ideal.cmp .olt (max x (-x)) (Ideal.ofBits .f32 0x7F800000#32) = 1#1) : ∃ r : ℝ, x = (r : EReal) := by
  rw [ofBits_inf_f32] at h
  refine real_of_abs_lt_top x ?_
  by_contra hn
  simp [Ideal.cmp, hn] at h

/-- One `all (|x| < +∞)`: if the reduction by `and` over all axes is 1, every entry of `x` is a real. -/
theorem real_of_all {s : Shape} {axes : List (Fin s.rank)} (x : FVec Ideal s .f32)
    (hb : S_.BroadcastsInDim s (![] : Fin 0 → Fin s.rank)) (hr : s.ReducesTo axes S_) (hu : 0 < S_.numel)
    (e : Host.reduce IntOp.andi
          (cmpf .olt (Host.absf x) (broadcastInDim s ![] hb (constant (F := Ideal) S_ .f32 0x7F800000#32)))
          (constantI S_ 1 1#1) hr hu ix0 = 1#1) :
    ∀ i, ∃ r : ℝ, x i = (r : EReal) := by
  intro i
  have hi := Host.reduce_andi_all _ _ hr hu ix0 e i
  rw [cmpf_apply, broadcastInDim_scalar_apply, constant_apply] at hi
  exact real_of_cmp_one (x i) hi

/-- The precondition gives: every entry of each of the six float inputs is a real number. -/
theorem real_of_pre [Cert.Pre_finite_inputs.Facts]
    (a0 : FVec Ideal Cert.Pre_finite_inputs.S50000x128 .f32) (a1 : FVec Ideal Cert.Pre_finite_inputs.S200x128 .f32)
    (a2 : FVec Ideal Cert.Pre_finite_inputs.S50000x1 .f32)
    (a3 a4 a5 : FVec Ideal Cert.Pre_finite_inputs.S2x128x128 .f32)
    (a6 a7 a8 : IVec Cert.Pre_finite_inputs.S500000 32)
    (h : Cert.Pre_finite_inputs.fn (F := Ideal) a0 a1 a2 a3 a4 a5 a6 a7 a8 = fun _ => 1#1) :
    (∀ i, ∃ r : ℝ, a0 i = (r : EReal)) ∧ (∀ i, ∃ r : ℝ, a1 i = (r : EReal)) ∧
    (∀ i, ∃ r : ℝ, a2 i = (r : EReal)) ∧ (∀ i, ∃ r : ℝ, a3 i = (r : EReal)) ∧
    (∀ i, ∃ r : ℝ, a4 i = (r : EReal)) ∧ (∀ i, ∃ r : ℝ, a5 i = (r : EReal)) := by
  have h0 := congrFun h ix0
  dsimp only [Cert.Pre_finite_inputs.fn, Cert.Pre_finite_inputs.fn_part1, andi] at h0
  obtain ⟨h01234, e5⟩ := IntOp.andi_eq_one.1 h0
  obtain ⟨h0123, e4⟩ := IntOp.andi_eq_one.1 h01234
  obtain ⟨h012, e3⟩ := IntOp.andi_eq_one.1 h0123
  obtain ⟨h01, e2⟩ := IntOp.andi_eq_one.1 h012
  obtain ⟨e0, e1⟩ := IntOp.andi_eq_one.1 h01
  exact ⟨real_of_all a0 _ _ _ e0, real_of_all a1 _ _ _ e1, real_of_all a2 _ _ _ e2,
    real_of_all a3 _ _ _ e3, real_of_all a4 _ _ _ e4, real_of_all a5 _ _ _ e5⟩

end Cert.Finite
-- ==== Proof.lean ====
/-
  The certificate of a two-layer relational graph-convolution cell: a fused node-update kernel against its jnp reference.

  Per layer the reference forms every edge's message (h[src] + rel[etype]) · Wn, sums the messages into their destination
  nodes, scales by the node's norm, adds the self-loop product h · Wl or h · Wa by whether the node has an incoming edge, and
  applies a leaky activation. The kernel's program sums the gathered rows into their destinations first — the relation rows
  once for both layers — and multiplies the two sums by Wn inside a node kernel that also does the scaling, the self-loop and
  the activation, block of 2000 nodes by block. At the ideal instance (floats extended reals, operations exact, changes of
  format the identity) the two agree because the weight product distributes over the finite sum over edges and the two finite
  sums exchange — laws of the reals, used at real entries: the float inputs are real by the precondition, and layer 0's output
  is real because it is built from them by sums, products and selections. The integer inputs (sources, destinations, edge
  types) are unconstrained: both programs wrap, clamp and drop them in the same way, and the exchange holds for any edge list.

  The three frames are the generated frame certificates (the reference's is its generated run with the result dropped); the
  idealization rewrote nothing, so `preserves` is trivial; `algebraic` puts the kernel's run, read in closed form, beside the
  reference's run, read stage by stage.
-/
import proofs.«113642_j49624052138542_2_alg».proof.Defs
import proofs.«113642_j49624052138542_2_alg».proof.Proof.Gen.Kernel
import proofs.«113642_j49624052138542_2_alg».proof.Proof.Gen.KernelIdeal
import proofs.«113642_j49624052138542_2_alg».proof.Proof.Gen.ReferenceIdeal
import proofs.«113642_j49624052138542_2_alg».proof.Proof.Gen.Pre_finite_inputs
import proofs.«113642_j49624052138542_2_alg».proof.Proof.FrameKP
import proofs.«113642_j49624052138542_2_alg».proof.Proof.FrameKIP
import proofs.«113642_j49624052138542_2_alg».proof.Proof.KernelRun
import proofs.«113642_j49624052138542_2_alg».proof.Proof.KernelValue
import proofs.«113642_j49624052138542_2_alg».proof.Proof.RunRP
import proofs.«113642_j49624052138542_2_alg».proof.Proof.ReadRP
import proofs.«113642_j49624052138542_2_alg».proof.Proof.Bridge
import proofs.«113642_j49624052138542_2_alg».proof.Proof.Finite
import Idealize.ShloMosaic.Adequacy
import Idealize.ShloMosaic.Init

set_option maxRecDepth 16384

noncomputable section

namespace Cert.Proof

open Idealize.ShloMosaic Idealize.ShloMosaic.TcCoe Idealize.SL.Sem

/-- The word-level kernel runs and leaves its arguments unchanged. -/
theorem frame_k : Cert.frame_Kernel := fun m ρ _ => Cert.Kernel.GenP.frame m ρ

/-- So does the idealized kernel. -/
theorem frame_ki : Cert.frame_KernelIdeal := fun m ρ _ => Cert.KernelIdeal.GenP.frame m ρ

/-- So does the idealized reference: its run, with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- From memories that agree on the arguments, both idealized programs end with the reference's last stage of the kernel's
    arguments in their result buffers. -/
theorem algebraic : Cert.algebraic_KernelIdeal_ReferenceIdeal := by
  intro m ρ m' ρ' hpre hagree
  have hK : θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
        r.2.mem ((c.tc : Thread Cert.KernelIdeal.nD Cert.KernelIdeal.τ).loc Cert.KernelIdeal.main_v51)
          = Cert.ReferenceIdeal.ReadP.val_main_v78 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
        ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
        ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
        ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
        ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)) := by
    refine (θ_run Cert.KernelIdeal.defs _ _).mono (fun r h c => ⟨?_, (h c).2⟩) (Cert.KernelIdeal.Run.run_result (F := Ideal) m ρ)
    obtain ⟨h0, h1, h2, h3, h4, h5⟩ := Cert.Finite.real_of_pre _ _ _ _ _ _ _ _ _ (hpre c)
    refine ((h c).1.trans (Cert.KernelIdeal.KernelValue.result m ρ c)).trans ?_
    exact Cert.Bridge.result_eq _ _ _ _ _ _ _ _ _ h0 h1 h2 h3 h4 h5
  refine ⟨_, hK, ?_⟩
  refine (θ_run Cert.ReferenceIdeal.defs _ _).mono (fun r h c => ⟨?_, (h c).2⟩)
    (Cert.ReferenceIdeal.ValueP.run (F := Ideal) m' ρ')
  rw [(h c).1, Cert.ReferenceIdeal.ReadP.val_main_v78_eq, (hagree c).1, (hagree c).2.1, (hagree c).2.2.1, (hagree c).2.2.2.1,
    (hagree c).2.2.2.2.1, (hagree c).2.2.2.2.2.1, (hagree c).2.2.2.2.2.2.1, (hagree c).2.2.2.2.2.2.2.1, (hagree c).2.2.2.2.2.2.2.2]

/-- Everything this certificate claims. -/
theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
